-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128 .f32) (main_arg16 : FVec F S128x64 .f32) (main_arg17 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x64 .f32) (main_arg17 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 72
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x64, .f32⟩
  | .hbm, ⟨71, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S50000x64.size a
  hwx2_10 : ∀ i : grid2.Coords, EltTy.bits .f32 = 32 ∨ (Rect.block (s := S50000x64) S5000x64.size (cc2_transform_10 i) (hinb2_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v44) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x128, .f32⟩
  | .hbm, ⟨118, _⟩ => ⟨S50000x128, .f32⟩
  | .hbm, ⟨119, _⟩ => ⟨S50000x64, .f32⟩
  | .hbm, ⟨120, _⟩ => ⟨S1x64, .f32⟩
  | .hbm, ⟨121, _⟩ => ⟨S50000x64, .f32⟩
  | .hbm, ⟨122, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_cst : Ref sig .tc := ⟨.hbm, 40, rfl⟩
abbrev main_call0_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_cst : Ref sig .tc := ⟨.hbm, 47, rfl⟩
abbrev main_call1_v0 : Ref sig .tc := ⟨.hbm, 48, rfl⟩
abbrev main_v24 : Ref sig .tc := ⟨.hbm, 49, rfl⟩
abbrev main_call2_cst : Ref sig .tc := ⟨.hbm, 50, rfl⟩
abbrev main_call2_v0 : Ref sig .tc := ⟨.hbm, 51, rfl⟩
abbrev main_v25 : Ref sig .tc := ⟨.hbm, 52, rfl⟩
abbrev main_c_1 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call3_cst : Ref sig .tc := ⟨.hbm, 71, rfl⟩
abbrev main_call3_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call4_cst : Ref sig .tc := ⟨.hbm, 78, rfl⟩
abbrev main_call4_v0 : Ref sig .tc := ⟨.hbm, 79, rfl⟩
abbrev main_v46 : Ref sig .tc := ⟨.hbm, 80, rfl⟩
abbrev main_call5_cst : Ref sig .tc := ⟨.hbm, 81, rfl⟩
abbrev main_call5_v0 : Ref sig .tc := ⟨.hbm, 82, rfl⟩
abbrev main_v47 : Ref sig .tc := ⟨.hbm, 83, rfl⟩
abbrev main_c_4 : Ref sig .tc := ⟨.hbm, 84, rfl⟩
abbrev main_v48 : Ref sig .tc := ⟨.hbm, 85, rfl⟩
abbrev main_v49 : Ref sig .tc := ⟨.hbm, 86, rfl⟩
abbrev main_c_5 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_6 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call6_cst : Ref sig .tc := ⟨.hbm, 102, rfl⟩
abbrev main_call6_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call7_cst : Ref sig .tc := ⟨.hbm, 109, rfl⟩
abbrev main_call7_v0 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_call8_cst : Ref sig .tc := ⟨.hbm, 116, rfl⟩
abbrev main_call8_v0 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Boundary.lean ====
/-
  The kernel program's run with its final memory read.

  The program is three kernel regions among stretches of host operations. Its run ends with every buffer that is not
  scoped to a region at the contents of the last segment boundary: the launch memory carried through each host stretch
  (the operations' results) and each region (its arrays at what the region's write-backs leave, every other buffer as
  entered). This module states that run once, for every such buffer; the value of the result and the arguments' frame
  are then readings of the boundary contents.
-/
import proofs.«181759_j86629490360414_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates, nothing faulting, and in every final state each buffer not
    scoped to a region holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Boundary

end
-- ==== Proof.HostChain.lean ====
/-
  What the host stretches compute, and what every buffer the regions read holds at each segment boundary.

  The edge list's two rows are cut out once, before the first region, and read again by the later stretches; each
  stretch gathers the current features along the edges and adds them into a zero array (`agg`), and makes each bias
  vector a row. No host operation and no region writes an argument, so an argument's buffer holds its launch
  contents at every boundary; the same for the two rows of the edge list once they are cut out.
-/
import proofs.«181759_j86629490360414_1_alg».proof.Proof.Gen.KernelIdeal.Frame
import Idealize.ShloMosaic.Lib.StableHlo.Run
import Idealize.ShloMosaic.PureOps.Ideal

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source node of every edge: the first row of the edge list. -/
def src (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The destination node of every edge: the second row of the edge list. -/
def dst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The neighbour sums: every edge adds its source's row (a negative source index counted from the end) into its
    destination's row of a zero array. -/
def agg (s d : (⟨S800000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-! ## The first boundary: after the first host stretch -/

theorem W1_src (c : Dev nD) : W1 m ρ c (Proc.devRef .tc main_v1) = src (m ((c : Thread nD τ).loc main_arg1)) := by
  show StableHlo.after hostOps0 (W0 m ρ c) _ = _
  dsimp only [hostOps0]
  after_results
  all_goals rfl

theorem W1_dst (c : Dev nD) : W1 m ρ c (Proc.devRef .tc main_v3) = dst (m ((c : Thread nD τ).loc main_arg1)) := by
  show StableHlo.after hostOps0 (W0 m ρ c) _ = _
  dsimp only [hostOps0]
  after_results
  all_goals rfl

theorem W1_arg0 (c : Dev nD) : W1 m ρ c (Proc.devRef .tc main_arg0) = (m ((c : Thread nD τ).loc main_arg0)) := by
  show StableHlo.after hostOps0 (W0 m ρ c) _ = _
  dsimp only [hostOps0]
  after_results
  all_goals rfl

theorem W1_arg2 (c : Dev nD) : W1 m ρ c (Proc.devRef .tc main_arg2) = (m ((c : Thread nD τ).loc main_arg2)) := by
  show StableHlo.after hostOps0 (W0 m ρ c) _ = _
  dsimp only [hostOps0]
  after_results
  all_goals rfl

theorem W1_arg4 (c : Dev nD) : W1 m ρ c (Proc.devRef .tc main_arg4) = (m ((c : Thread nD τ).loc main_arg4)) := by
  show StableHlo.after hostOps0 (W0 m ρ c) _ = _
  dsimp only [hostOps0]
  after_results
  all_goals rfl

theorem W1_arg6 (c : Dev nD) : W1 m ρ c (Proc.devRef .tc main_arg6) = (m ((c : Thread nD τ).loc main_arg6)) := by
  show StableHlo.after hostOps0 (W0 m ρ c) _ = _
  dsimp only [hostOps0]
  after_results
  all_goals rfl

theorem W1_arg7 (c : Dev nD) : W1 m ρ c (Proc.devRef .tc main_arg7) = (m ((c : Thread nD τ).loc main_arg7)) := by
  show StableHlo.after hostOps0 (W0 m ρ c) _ = _
  dsimp only [hostOps0]
  after_results
  all_goals rfl

theorem W1_arg8 (c : Dev nD) : W1 m ρ c (Proc.devRef .tc main_arg8) = (m ((c : Thread nD τ).loc main_arg8)) := by
  show StableHlo.after hostOps0 (W0 m ρ c) _ = _
  dsimp only [hostOps0]
  after_results
  all_goals rfl

theorem W1_arg9 (c : Dev nD) : W1 m ρ c (Proc.devRef .tc main_arg9) = (m ((c : Thread nD τ).loc main_arg9)) := by
  show StableHlo.after hostOps0 (W0 m ρ c) _ = _
  dsimp only [hostOps0]
  after_results
  all_goals rfl

theorem W1_arg10 (c : Dev nD) : W1 m ρ c (Proc.devRef .tc main_arg10) = (m ((c : Thread nD τ).loc main_arg10)) := by
  show StableHlo.after hostOps0 (W0 m ρ c) _ = _
  dsimp only [hostOps0]
  after_results
  all_goals rfl

theorem W1_arg11 (c : Dev nD) : W1 m ρ c (Proc.devRef .tc main_arg11) = (m ((c : Thread nD τ).loc main_arg11)) := by
  show StableHlo.after hostOps0 (W0 m ρ c) _ = _
  dsimp only [hostOps0]
  after_results
  all_goals rfl

theorem W1_arg12 (c : Dev nD) : W1 m ρ c (Proc.devRef .tc main_arg12) = (m ((c : Thread nD τ).loc main_arg12)) := by
  show StableHlo.after hostOps0 (W0 m ρ c) _ = _
  dsimp only [hostOps0]
  after_results
  all_goals rfl

theorem W1_arg13 (c : Dev nD) : W1 m ρ c (Proc.devRef .tc main_arg13) = (m ((c : Thread nD τ).loc main_arg13)) := by
  show StableHlo.after hostOps0 (W0 m ρ c) _ = _
  dsimp only [hostOps0]
  after_results
  all_goals rfl

theorem W1_arg14 (c : Dev nD) : W1 m ρ c (Proc.devRef .tc main_arg14) = (m ((c : Thread nD τ).loc main_arg14)) := by
  show StableHlo.after hostOps0 (W0 m ρ c) _ = _
  dsimp only [hostOps0]
  after_results
  all_goals rfl

theorem W1_arg15 (c : Dev nD) : W1 m ρ c (Proc.devRef .tc main_arg15) = (m ((c : Thread nD τ).loc main_arg15)) := by
  show StableHlo.after hostOps0 (W0 m ρ c) _ = _
  dsimp only [hostOps0]
  after_results
  all_goals rfl

theorem W1_arg16 (c : Dev nD) : W1 m ρ c (Proc.devRef .tc main_arg16) = (m ((c : Thread nD τ).loc main_arg16)) := by
  show StableHlo.after hostOps0 (W0 m ρ c) _ = _
  dsimp only [hostOps0]
  after_results
  all_goals rfl

theorem W1_arg17 (c : Dev nD) : W1 m ρ c (Proc.devRef .tc main_arg17) = (m ((c : Thread nD τ).loc main_arg17)) := by
  show StableHlo.after hostOps0 (W0 m ρ c) _ = _
  dsimp only [hostOps0]
  after_results
  all_goals rfl

set_option maxHeartbeats 2000000 in
/-- The first neighbour sums: `agg` of the input features. -/
theorem W1_v13 (c : Dev nD) : W1 m ρ c (Proc.devRef .tc main_v13) = agg (src (m ((c : Thread nD τ).loc main_arg1))) (dst (m ((c : Thread nD τ).loc main_arg1))) (m ((c : Thread nD τ).loc main_arg0)) := by
  show StableHlo.after hostOps0 (W0 m ρ c) _ = _
  dsimp only [hostOps0]
  after_results_simp
  all_goals rfl

theorem W1_v14 (c : Dev nD) : W1 m ρ c (Proc.devRef .tc main_v14) = shapeCast S1x128 (m ((c : Thread nD τ).loc main_arg3)) shapeCasts_S128_S1x128 := by
  show StableHlo.after hostOps0 (W0 m ρ c) _ = _
  dsimp only [hostOps0]
  after_results
  all_goals rfl

theorem W1_v15 (c : Dev nD) : W1 m ρ c (Proc.devRef .tc main_v15) = shapeCast S1x128 (m ((c : Thread nD τ).loc main_arg5)) shapeCasts_S128_S1x128 := by
  show StableHlo.after hostOps0 (W0 m ρ c) _ = _
  dsimp only [hostOps0]
  after_results
  all_goals rfl

/-! ## The second boundary: after the first region (it writes only its own output array) -/

theorem W2_src (c : Dev nD) : W2 m ρ c (Proc.devRef .tc main_v1) = src (m ((c : Thread nD τ).loc main_arg1)) := (W2_of_ne m ρ c main_v1 (by decide)).trans (W1_src m ρ c)
theorem W2_dst (c : Dev nD) : W2 m ρ c (Proc.devRef .tc main_v3) = dst (m ((c : Thread nD τ).loc main_arg1)) := (W2_of_ne m ρ c main_v3 (by decide)).trans (W1_dst m ρ c)
theorem W2_arg6 (c : Dev nD) : W2 m ρ c (Proc.devRef .tc main_arg6) = (m ((c : Thread nD τ).loc main_arg6)) := (W2_of_ne m ρ c main_arg6 (by decide)).trans (W1_arg6 m ρ c)
theorem W2_arg7 (c : Dev nD) : W2 m ρ c (Proc.devRef .tc main_arg7) = (m ((c : Thread nD τ).loc main_arg7)) := (W2_of_ne m ρ c main_arg7 (by decide)).trans (W1_arg7 m ρ c)
theorem W2_arg8 (c : Dev nD) : W2 m ρ c (Proc.devRef .tc main_arg8) = (m ((c : Thread nD τ).loc main_arg8)) := (W2_of_ne m ρ c main_arg8 (by decide)).trans (W1_arg8 m ρ c)
theorem W2_arg9 (c : Dev nD) : W2 m ρ c (Proc.devRef .tc main_arg9) = (m ((c : Thread nD τ).loc main_arg9)) := (W2_of_ne m ρ c main_arg9 (by decide)).trans (W1_arg9 m ρ c)
theorem W2_arg10 (c : Dev nD) : W2 m ρ c (Proc.devRef .tc main_arg10) = (m ((c : Thread nD τ).loc main_arg10)) := (W2_of_ne m ρ c main_arg10 (by decide)).trans (W1_arg10 m ρ c)
theorem W2_arg11 (c : Dev nD) : W2 m ρ c (Proc.devRef .tc main_arg11) = (m ((c : Thread nD τ).loc main_arg11)) := (W2_of_ne m ρ c main_arg11 (by decide)).trans (W1_arg11 m ρ c)
theorem W2_arg12 (c : Dev nD) : W2 m ρ c (Proc.devRef .tc main_arg12) = (m ((c : Thread nD τ).loc main_arg12)) := (W2_of_ne m ρ c main_arg12 (by decide)).trans (W1_arg12 m ρ c)
theorem W2_arg13 (c : Dev nD) : W2 m ρ c (Proc.devRef .tc main_arg13) = (m ((c : Thread nD τ).loc main_arg13)) := (W2_of_ne m ρ c main_arg13 (by decide)).trans (W1_arg13 m ρ c)
theorem W2_arg14 (c : Dev nD) : W2 m ρ c (Proc.devRef .tc main_arg14) = (m ((c : Thread nD τ).loc main_arg14)) := (W2_of_ne m ρ c main_arg14 (by decide)).trans (W1_arg14 m ρ c)
theorem W2_arg15 (c : Dev nD) : W2 m ρ c (Proc.devRef .tc main_arg15) = (m ((c : Thread nD τ).loc main_arg15)) := (W2_of_ne m ρ c main_arg15 (by decide)).trans (W1_arg15 m ρ c)
theorem W2_arg16 (c : Dev nD) : W2 m ρ c (Proc.devRef .tc main_arg16) = (m ((c : Thread nD τ).loc main_arg16)) := (W2_of_ne m ρ c main_arg16 (by decide)).trans (W1_arg16 m ρ c)
theorem W2_arg17 (c : Dev nD) : W2 m ρ c (Proc.devRef .tc main_arg17) = (m ((c : Thread nD τ).loc main_arg17)) := (W2_of_ne m ρ c main_arg17 (by decide)).trans (W1_arg17 m ρ c)

/-! ## The third boundary: after the second host stretch -/

theorem W3_src (c : Dev nD) : W3 m ρ c (Proc.devRef .tc main_v1) = src (m ((c : Thread nD τ).loc main_arg1)) := by
  show StableHlo.after hostOps1 (W2 m ρ c) _ = _
  dsimp only [hostOps1]
  after_results
  all_goals exact W2_src m ρ c

theorem W3_dst (c : Dev nD) : W3 m ρ c (Proc.devRef .tc main_v3) = dst (m ((c : Thread nD τ).loc main_arg1)) := by
  show StableHlo.after hostOps1 (W2 m ρ c) _ = _
  dsimp only [hostOps1]
  after_results
  all_goals exact W2_dst m ρ c

/-- The stretch leaves the first region's output in place. -/
theorem W3_v16 (c : Dev nD) : W3 m ρ c (Proc.devRef .tc main_v16) = W2 m ρ c (Proc.devRef .tc main_v16) := by
  show StableHlo.after hostOps1 (W2 m ρ c) _ = _
  dsimp only [hostOps1]
  after_results
  all_goals rfl

set_option maxHeartbeats 2000000 in
/-- The second neighbour sums: `agg` of the first region's output. -/
theorem W3_v26 (c : Dev nD) : W3 m ρ c (Proc.devRef .tc main_v26) = agg (src (m ((c : Thread nD τ).loc main_arg1))) (dst (m ((c : Thread nD τ).loc main_arg1))) (W2 m ρ c (Proc.devRef .tc main_v16)) := by
  show StableHlo.after hostOps1 (W2 m ρ c) _ = _
  dsimp only [hostOps1]
  after_results_simp
  rw [W2_src m ρ c, W2_dst m ρ c]
  rfl

theorem W3_v27 (c : Dev nD) : W3 m ρ c (Proc.devRef .tc main_v27) = shapeCast S1x128 (m ((c : Thread nD τ).loc main_arg7)) shapeCasts_S128_S1x128 := by
  show StableHlo.after hostOps1 (W2 m ρ c) _ = _
  dsimp only [hostOps1]
  after_results
  rw [W2_arg7 m ρ c]
  rfl

theorem W3_v28 (c : Dev nD) : W3 m ρ c (Proc.devRef .tc main_v28) = shapeCast S1x128 (m ((c : Thread nD τ).loc main_arg9)) shapeCasts_S128_S1x128 := by
  show StableHlo.after hostOps1 (W2 m ρ c) _ = _
  dsimp only [hostOps1]
  after_results
  rw [W2_arg9 m ρ c]
  rfl

theorem W3_arg6 (c : Dev nD) : W3 m ρ c (Proc.devRef .tc main_arg6) = (m ((c : Thread nD τ).loc main_arg6)) := by
  show StableHlo.after hostOps1 (W2 m ρ c) _ = _
  dsimp only [hostOps1]
  after_results
  all_goals exact W2_arg6 m ρ c

theorem W3_arg8 (c : Dev nD) : W3 m ρ c (Proc.devRef .tc main_arg8) = (m ((c : Thread nD τ).loc main_arg8)) := by
  show StableHlo.after hostOps1 (W2 m ρ c) _ = _
  dsimp only [hostOps1]
  after_results
  all_goals exact W2_arg8 m ρ c

theorem W3_arg10 (c : Dev nD) : W3 m ρ c (Proc.devRef .tc main_arg10) = (m ((c : Thread nD τ).loc main_arg10)) := by
  show StableHlo.after hostOps1 (W2 m ρ c) _ = _
  dsimp only [hostOps1]
  after_results
  all_goals exact W2_arg10 m ρ c

theorem W3_arg11 (c : Dev nD) : W3 m ρ c (Proc.devRef .tc main_arg11) = (m ((c : Thread nD τ).loc main_arg11)) := by
  show StableHlo.after hostOps1 (W2 m ρ c) _ = _
  dsimp only [hostOps1]
  after_results
  all_goals exact W2_arg11 m ρ c

theorem W3_arg12 (c : Dev nD) : W3 m ρ c (Proc.devRef .tc main_arg12) = (m ((c : Thread nD τ).loc main_arg12)) := by
  show StableHlo.after hostOps1 (W2 m ρ c) _ = _
  dsimp only [hostOps1]
  after_results
  all_goals exact W2_arg12 m ρ c

theorem W3_arg13 (c : Dev nD) : W3 m ρ c (Proc.devRef .tc main_arg13) = (m ((c : Thread nD τ).loc main_arg13)) := by
  show StableHlo.after hostOps1 (W2 m ρ c) _ = _
  dsimp only [hostOps1]
  after_results
  all_goals exact W2_arg13 m ρ c

theorem W3_arg14 (c : Dev nD) : W3 m ρ c (Proc.devRef .tc main_arg14) = (m ((c : Thread nD τ).loc main_arg14)) := by
  show StableHlo.after hostOps1 (W2 m ρ c) _ = _
  dsimp only [hostOps1]
  after_results
  all_goals exact W2_arg14 m ρ c

theorem W3_arg15 (c : Dev nD) : W3 m ρ c (Proc.devRef .tc main_arg15) = (m ((c : Thread nD τ).loc main_arg15)) := by
  show StableHlo.after hostOps1 (W2 m ρ c) _ = _
  dsimp only [hostOps1]
  after_results
  all_goals exact W2_arg15 m ρ c

theorem W3_arg16 (c : Dev nD) : W3 m ρ c (Proc.devRef .tc main_arg16) = (m ((c : Thread nD τ).loc main_arg16)) := by
  show StableHlo.after hostOps1 (W2 m ρ c) _ = _
  dsimp only [hostOps1]
  after_results
  all_goals exact W2_arg16 m ρ c

theorem W3_arg17 (c : Dev nD) : W3 m ρ c (Proc.devRef .tc main_arg17) = (m ((c : Thread nD τ).loc main_arg17)) := by
  show StableHlo.after hostOps1 (W2 m ρ c) _ = _
  dsimp only [hostOps1]
  after_results
  all_goals exact W2_arg17 m ρ c

/-! ## The fourth boundary: after the second region -/

theorem W4_src (c : Dev nD) : W4 m ρ c (Proc.devRef .tc main_v1) = src (m ((c : Thread nD τ).loc main_arg1)) := (W4_of_ne m ρ c main_v1 (by decide)).trans (W3_src m ρ c)
theorem W4_dst (c : Dev nD) : W4 m ρ c (Proc.devRef .tc main_v3) = dst (m ((c : Thread nD τ).loc main_arg1)) := (W4_of_ne m ρ c main_v3 (by decide)).trans (W3_dst m ρ c)
theorem W4_arg10 (c : Dev nD) : W4 m ρ c (Proc.devRef .tc main_arg10) = (m ((c : Thread nD τ).loc main_arg10)) := (W4_of_ne m ρ c main_arg10 (by decide)).trans (W3_arg10 m ρ c)
theorem W4_arg11 (c : Dev nD) : W4 m ρ c (Proc.devRef .tc main_arg11) = (m ((c : Thread nD τ).loc main_arg11)) := (W4_of_ne m ρ c main_arg11 (by decide)).trans (W3_arg11 m ρ c)
theorem W4_arg12 (c : Dev nD) : W4 m ρ c (Proc.devRef .tc main_arg12) = (m ((c : Thread nD τ).loc main_arg12)) := (W4_of_ne m ρ c main_arg12 (by decide)).trans (W3_arg12 m ρ c)
theorem W4_arg13 (c : Dev nD) : W4 m ρ c (Proc.devRef .tc main_arg13) = (m ((c : Thread nD τ).loc main_arg13)) := (W4_of_ne m ρ c main_arg13 (by decide)).trans (W3_arg13 m ρ c)
theorem W4_arg14 (c : Dev nD) : W4 m ρ c (Proc.devRef .tc main_arg14) = (m ((c : Thread nD τ).loc main_arg14)) := (W4_of_ne m ρ c main_arg14 (by decide)).trans (W3_arg14 m ρ c)
theorem W4_arg15 (c : Dev nD) : W4 m ρ c (Proc.devRef .tc main_arg15) = (m ((c : Thread nD τ).loc main_arg15)) := (W4_of_ne m ρ c main_arg15 (by decide)).trans (W3_arg15 m ρ c)
theorem W4_arg16 (c : Dev nD) : W4 m ρ c (Proc.devRef .tc main_arg16) = (m ((c : Thread nD τ).loc main_arg16)) := (W4_of_ne m ρ c main_arg16 (by decide)).trans (W3_arg16 m ρ c)
theorem W4_arg17 (c : Dev nD) : W4 m ρ c (Proc.devRef .tc main_arg17) = (m ((c : Thread nD τ).loc main_arg17)) := (W4_of_ne m ρ c main_arg17 (by decide)).trans (W3_arg17 m ρ c)

/-! ## The fifth boundary: after the third host stretch -/

/-- The stretch leaves the second region's output in place. -/
theorem W5_v29 (c : Dev nD) : W5 m ρ c (Proc.devRef .tc main_v29) = W4 m ρ c (Proc.devRef .tc main_v29) := by
  show StableHlo.after hostOps2 (W4 m ρ c) _ = _
  dsimp only [hostOps2]
  after_results
  all_goals rfl

set_option maxHeartbeats 2000000 in
/-- The third neighbour sums: `agg` of the second region's output. -/
theorem W5_v39 (c : Dev nD) : W5 m ρ c (Proc.devRef .tc main_v39) = agg (src (m ((c : Thread nD τ).loc main_arg1))) (dst (m ((c : Thread nD τ).loc main_arg1))) (W4 m ρ c (Proc.devRef .tc main_v29)) := by
  show StableHlo.after hostOps2 (W4 m ρ c) _ = _
  dsimp only [hostOps2]
  after_results_simp
  rw [W4_src m ρ c, W4_dst m ρ c]
  rfl

theorem W5_v40 (c : Dev nD) : W5 m ρ c (Proc.devRef .tc main_v40) = shapeCast S1x128 (m ((c : Thread nD τ).loc main_arg11)) shapeCasts_S128_S1x128 := by
  show StableHlo.after hostOps2 (W4 m ρ c) _ = _
  dsimp only [hostOps2]
  after_results
  rw [W4_arg11 m ρ c]
  rfl

theorem W5_v41 (c : Dev nD) : W5 m ρ c (Proc.devRef .tc main_v41) = shapeCast S1x128 (m ((c : Thread nD τ).loc main_arg13)) shapeCasts_S128_S1x128 := by
  show StableHlo.after hostOps2 (W4 m ρ c) _ = _
  dsimp only [hostOps2]
  after_results
  rw [W4_arg13 m ρ c]
  rfl

theorem W5_v42 (c : Dev nD) : W5 m ρ c (Proc.devRef .tc main_v42) = shapeCast S1x128 (m ((c : Thread nD τ).loc main_arg15)) shapeCasts_S128_S1x128 := by
  show StableHlo.after hostOps2 (W4 m ρ c) _ = _
  dsimp only [hostOps2]
  after_results
  rw [W4_arg15 m ρ c]
  rfl

theorem W5_v43 (c : Dev nD) : W5 m ρ c (Proc.devRef .tc main_v43) = shapeCast S1x64 (m ((c : Thread nD τ).loc main_arg17)) shapeCasts_S64_S1x64 := by
  show StableHlo.after hostOps2 (W4 m ρ c) _ = _
  dsimp only [hostOps2]
  after_results
  rw [W4_arg17 m ρ c]
  rfl

theorem W5_arg10 (c : Dev nD) : W5 m ρ c (Proc.devRef .tc main_arg10) = (m ((c : Thread nD τ).loc main_arg10)) := by
  show StableHlo.after hostOps2 (W4 m ρ c) _ = _
  dsimp only [hostOps2]
  after_results
  all_goals exact W4_arg10 m ρ c

theorem W5_arg12 (c : Dev nD) : W5 m ρ c (Proc.devRef .tc main_arg12) = (m ((c : Thread nD τ).loc main_arg12)) := by
  show StableHlo.after hostOps2 (W4 m ρ c) _ = _
  dsimp only [hostOps2]
  after_results
  all_goals exact W4_arg12 m ρ c

theorem W5_arg14 (c : Dev nD) : W5 m ρ c (Proc.devRef .tc main_arg14) = (m ((c : Thread nD τ).loc main_arg14)) := by
  show StableHlo.after hostOps2 (W4 m ρ c) _ = _
  dsimp only [hostOps2]
  after_results
  all_goals exact W4_arg14 m ρ c

theorem W5_arg16 (c : Dev nD) : W5 m ρ c (Proc.devRef .tc main_arg16) = (m ((c : Thread nD τ).loc main_arg16)) := by
  show StableHlo.after hostOps2 (W4 m ρ c) _ = _
  dsimp only [hostOps2]
  after_results
  all_goals exact W4_arg16 m ρ c

end Cert.KernelIdeal.HostChain

end
-- ==== Proof.Rows.lean ====
/-
  One node's row through the network, on the extended reals.

  A layer sends a node's feature row `h` and the sum `a` of its in-neighbours' rows to
  `relu ((relu ((h + a) · W₁ + b₁)) · W₂ + b₂)`; the head sends a row `x` to
  `(relu (x · L₁ + c₁)) · L₂ + c₂`. A row of the result depends on the same row of `h` and of `a`
  only, so these functions of one row describe a block of rows and the whole array alike.
  Sums over the 128 features are finite sums in the commutative monoid of extended reals, so no
  finiteness is needed anywhere; the one law used later is that `relu` is idempotent.
-/
import Idealize.ShloMosaic.PureOps.Ideal

noncomputable section

namespace Gin

/-- The rectifier: the larger of a value and zero. -/
def relu (x : EReal) : EReal := max x 0

/-- Rectifying twice is rectifying once. -/
theorem relu_relu (x : EReal) : relu (relu x) = relu x := by
  unfold relu
  exact max_eq_left (le_max_right x 0)

/-- A row times a weight matrix plus a bias, at output feature `q`. -/
def affine {n : Nat} (x : Fin 128 → EReal) (w : Fin 128 → Fin n → EReal) (b : Fin n → EReal) (q : Fin n) : EReal :=
  (∑ k : Fin 128, x k * w k q) + b q

/-- One layer on one node: its own row plus its neighbours' sum, through two rectified affine maps. -/
def layerRow (h a : Fin 128 → EReal) (w1 : Fin 128 → Fin 128 → EReal) (b1 : Fin 128 → EReal)
    (w2 : Fin 128 → Fin 128 → EReal) (b2 : Fin 128 → EReal) (q : Fin 128) : EReal :=
  relu (affine (fun k => relu (affine (fun j => h j + a j) w1 b1 k)) w2 b2 q)

/-- The output head on one node: a rectified affine map to 128 features, then an affine map to 64. -/
def headRow (x : Fin 128 → EReal) (l1 : Fin 128 → Fin 128 → EReal) (c1 : Fin 128 → EReal)
    (l2 : Fin 128 → Fin 64 → EReal) (c2 : Fin 64 → EReal) (q : Fin 64) : EReal :=
  affine (fun k => relu (affine x l1 c1 k)) l2 c2 q

end Gin

end
-- ==== Proof.BlockOps.lean ====
/-
  The kernel bodies' arithmetic read at one entry of a block of 5000 rows.

  A body loads a block of rows `h`, the matching block of neighbour sums `a`, the weights and the biases (each
  bias a single row), and stores one value. Read at row `p` and column `q` of the block that value is the row
  mathematics of `Rows.lean` applied to row `p` of `h` and of `a`: the matrix product into a zero accumulator is the
  finite sum over the 128 contracted features, the bias row is spread over all rows, the rounding to a narrower
  float format is the identity on extended reals, and the maximum with a zero splat is the rectifier.
-/
import proofs.«181759_j86629490360414_1_alg».proof.Proof.Gen.KernelIdeal.Skeleton
import proofs.«181759_j86629490360414_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockOps

open Cert.KernelIdeal Cert.KernelIdeal.Gen Idealize.ShloMosaic Idealize.ShloMosaic.ValueIdx Idealize.SL.Sem

/-! ### The 128 product's operand indices -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `p` and column `q`: the sum over the 128 contracted features of
    the left operand's row `p` times the right operand's column `q`. -/
theorem matmul128_apply {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- A product into zero plus a bias row spread over the block's rows, at `(p, q)`: the affine map of row `p`. -/
theorem dense128_apply {φ₁ φ₂ : FTy} (x : FVec Ideal S5000x128 φ₁) (w : FVec Ideal S128x128 φ₂) (b : Vec Ideal S1x128 .f32)
    (hc : S1x128.ShapeCasts S1x128) (hb : S1x128.Broadcasts S5000x128) (p : Fin 5000) (q : Fin 128) :
    addf (matmul dot_S5000x128_S128x128_S5000x128_1_0_0_1_n_n none x w (constant (F := Ideal) S5000x128 .f32 0x00000000#32))
        (broadcastTo S5000x128 (shapeCast S1x128 b hc) hb) (ix2 p q)
      = Gin.affine (fun k => x (ix2 p k)) (fun k c => w (ix2 k c)) (fun c => b (ix2 (0 : Fin 1) c)) q := by
  rw [shapeCast_self]
  refine (addf_apply _ _ _).trans ?_
  rw [matmul128_apply, broadcastTo_1b_ab_apply b hb p q]
  rfl

/-! ### The 64 product's operand indices -/

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at row `p` and column `q`: the sum over the 128 contracted features of
    the left operand's row `p` times the right operand's column `q`. -/
theorem matmul64_apply {φ₁ φ₂ : FTy} (x : FVec Ideal S5000x128 φ₁) (w : FVec Ideal S128x64 φ₂) (p : Fin 5000) (q : Fin 64) :
    matmul dot_S5000x128_S128x64_S5000x64_1_0_0_1_n_n none x w (constant (F := Ideal) S5000x64 .f32 0x00000000#32) (ix2 p q)
      = ∑ k : Fin 128, x (ix2 p k) * w (ix2 k q) := by
  refine (Ideal.matmul_constant_zero_apply dot_S5000x128_S128x64_S5000x64_1_0_0_1_n_n none x w (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-- A product into zero plus a bias row spread over the block's rows, at `(p, q)`: the affine map of row `p`. -/
theorem dense64_apply {φ₁ φ₂ : FTy} (x : FVec Ideal S5000x128 φ₁) (w : FVec Ideal S128x64 φ₂) (b : Vec Ideal S1x64 .f32)
    (hc : S1x64.ShapeCasts S1x64) (hb : S1x64.Broadcasts S5000x64) (p : Fin 5000) (q : Fin 64) :
    addf (matmul dot_S5000x128_S128x64_S5000x64_1_0_0_1_n_n none x w (constant (F := Ideal) S5000x64 .f32 0x00000000#32))
        (broadcastTo S5000x64 (shapeCast S1x64 b hc) hb) (ix2 p q)
      = Gin.affine (fun k => x (ix2 p k)) (fun k c => w (ix2 k c)) (fun c => b (ix2 (0 : Fin 1) c)) q := by
  rw [shapeCast_self]
  refine (addf_apply _ _ _).trans ?_
  rw [matmul64_apply, broadcastTo_1b_ab_apply b hb p q]
  rfl

/-- The maximum with a splat of the zero word is the rectifier. -/
theorem relu_apply (v : FVec Ideal S5000x128 .f32) (i : S5000x128.Idx) :
    maximumf v (broadcast S5000x128 (Scalar.ofBits (F := Ideal) .f32 0x00000000#32)) i = Gin.relu (v i) := by
  refine (maximumf_apply _ _ _).trans ?_
  show max (v i) (Ideal.ofBits .f32 0x00000000#32) = _
  rw [Ideal.ofBits_zero_f32]
  rfl

end Cert.KernelIdeal.BlockOps

end
-- ==== Proof.ArrSpec.lean ====
/-
  The layers on whole arrays: every row of the result is the row mathematics of `Rows.lean` applied to the same row
  of the node features and of the neighbour sums. The weights come as arrays, a bias as its 128 (or 64) entries.
-/
import proofs.«181759_j86629490360414_1_alg».proof.Proof.Rows
import Idealize.ShloMosaic.Lib.ValueIdx

noncomputable section

namespace Gin

open Idealize.ShloMosaic Idealize.ShloMosaic.ValueIdx

/-- One layer on all 50000 nodes: entry `(r, q)` is the layer's row function of row `r` of the features `h` and
    of the neighbour sums `a`. -/
def layerArr (h a : (⟨2, ![50000, 128]⟩ : Shape).Idx → EReal) (w1 : (⟨2, ![128, 128]⟩ : Shape).Idx → EReal)
    (b1 : Fin 128 → EReal) (w2 : (⟨2, ![128, 128]⟩ : Shape).Idx → EReal) (b2 : Fin 128 → EReal) :
    (⟨2, ![50000, 128]⟩ : Shape).Idx → EReal :=
  fun i => layerRow (fun j => h (ix2 (i 0) j)) (fun j => a (ix2 (i 0) j)) (fun j k => w1 (ix2 j k)) b1
    (fun j k => w2 (ix2 j k)) b2 (i 1)

/-- The output head on all nodes. -/
def headArr (x : (⟨2, ![50000, 128]⟩ : Shape).Idx → EReal) (l1 : (⟨2, ![128, 128]⟩ : Shape).Idx → EReal)
    (c1 : Fin 128 → EReal) (l2 : (⟨2, ![128, 64]⟩ : Shape).Idx → EReal) (c2 : Fin 64 → EReal) :
    (⟨2, ![50000, 64]⟩ : Shape).Idx → EReal :=
  fun i => headRow (fun j => x (ix2 (i 0) j)) (fun j k => l1 (ix2 j k)) c1 (fun j k => l2 (ix2 j k)) c2 (i 1)

/-- A layer's output is already rectified: rectifying it again changes nothing. -/
theorem relu_layerArr (h a : (⟨2, ![50000, 128]⟩ : Shape).Idx → EReal) (w1 : (⟨2, ![128, 128]⟩ : Shape).Idx → EReal)
    (b1 : Fin 128 → EReal) (w2 : (⟨2, ![128, 128]⟩ : Shape).Idx → EReal) (b2 : Fin 128 → EReal)
    (i : (⟨2, ![50000, 128]⟩ : Shape).Idx) :
    relu (layerArr h a w1 b1 w2 b2 i) = layerArr h a w1 b1 w2 b2 i := by
  unfold layerArr layerRow
  exact relu_relu _

end Gin

end
-- ==== Proof.Layer0.lean ====
/-
  The first region: one layer on the input features.

  Each of its ten grid points takes 5000 rows of the features and of the neighbour sums, the two weight matrices and the
  two bias rows whole, and writes 5000 rows of the result. A row of the result is the layer's row function of the same
  row of the two row arrays, so the ten written blocks are the ten blocks of one whole-array function, and they tile it.
-/
import proofs.«181759_j86629490360414_1_alg».proof.Proof.Gen.KernelIdeal.Frame
import proofs.«181759_j86629490360414_1_alg».proof.Proof.BlockOps
import proofs.«181759_j86629490360414_1_alg».proof.Proof.ArrSpec
import Idealize.ShloMosaic.Lib.Pipeline.Value

set_option maxRecDepth 16384

noncomputable section

namespace Cert.KernelIdeal.Layer0

open Cert.KernelIdeal Cert.KernelIdeal.Gen Cert.KernelIdeal.BlockOps
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of the block: the layer's row function of row `p` of the two row blocks. -/
theorem pay_apply (v0 v1 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k0_pay1 v0 v1 w1 b1 w2 b2 (ix2 p q)
      = Gin.layerRow (fun j => v0 (ix2 p j)) (fun j => v1 (ix2 p j)) (fun j k => w1 (ix2 j k)) (fun k => b1 (ix2 (0 : Fin 1) k))
          (fun j k => w2 (ix2 j k)) (fun k => b2 (ix2 (0 : Fin 1) k)) q := by
  unfold k0_pay1
  try dsimp only
  refine (relu_apply _ (ix2 p q)).trans ?_
  unfold Gin.layerRow
  refine congrArg Gin.relu ?_
  refine (dense128_apply _ _ _ _ _ p q).trans ?_
  refine congrArg (fun f => Gin.affine f (fun j k => w2 (ix2 j k)) (fun k => b2 (ix2 (0 : Fin 1) k)) q) (funext fun k => ?_)
  refine (truncf_apply (ψ := .bf16) _ bitsLt_bf16_f32 (ix2 p k)).trans ?_
  refine (relu_apply _ (ix2 p k)).trans (congrArg Gin.relu ?_)
  refine (dense128_apply _ _ _ _ _ p k).trans ?_
  refine congrArg (fun f => Gin.affine f (fun j k => w1 (ix2 j k)) (fun k => b1 (ix2 (0 : Fin 1) k)) k) (funext fun j => ?_)
  refine (truncf_apply (ψ := .bf16) _ bitsLt_bf16_f32 (ix2 p j)).trans ?_
  refine (addf_apply _ _ _).trans ?_
  simp only [shapeCast_self]

/-- The printed index maps over the ten grid points: the two row windows and the output move one block of 5000 rows
    per point, every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of input window 0's block at point `t` is row `5000 t + p` of its array. -/
theorem blk0_apply (c : Dev nD) (t : Fin cfg0.N) (p : Fin 5000) (j : Fin 128) (R : Fin 50000) (hR : R.val = 5000 * t.val + p.val) :
    (iblk0 V c 0 t : Vec Ideal S5000x128 .f32) (ix2 p j) = (V c main_arg0 : Vec Ideal S50000x128 .f32) (ix2 R j) := by
  obtain ⟨e0a, e0b, e1a, e1b, e2a, e2b, e3a, e3b, e4a, e4b, e5a, e5b, e6a, e6b⟩ := idx_facts t
  unfold iblk0
  rw [View.read_apply]
  show (V c main_arg0 : Vec Ideal S50000x128 .f32) _ = (V c main_arg0 : Vec Ideal S50000x128 .f32) _
  refine congrArg (V c main_arg0 : Vec Ideal S50000x128 .f32) (funext fun a => Fin.ext ?_)
  match a with
  | ⟨0, _⟩ => show win0_0.index t (0 : Fin 2) * 5000 + 1 * p.val = R.val; rw [e0a, hR]; omega
  | ⟨1, _⟩ => show win0_0.index t (1 : Fin 2) * 128 + 1 * j.val = j.val; rw [e0b]; omega

/-- Row `p` of input window 1's block at point `t` is row `5000 t + p` of its array. -/
theorem blk1_apply (c : Dev nD) (t : Fin cfg0.N) (p : Fin 5000) (j : Fin 128) (R : Fin 50000) (hR : R.val = 5000 * t.val + p.val) :
    (iblk0 V c 1 t : Vec Ideal S5000x128 .f32) (ix2 p j) = (V c main_v13 : Vec Ideal S50000x128 .f32) (ix2 R j) := by
  obtain ⟨e0a, e0b, e1a, e1b, e2a, e2b, e3a, e3b, e4a, e4b, e5a, e5b, e6a, e6b⟩ := idx_facts t
  unfold iblk0
  rw [View.read_apply]
  show (V c main_v13 : Vec Ideal S50000x128 .f32) _ = (V c main_v13 : Vec Ideal S50000x128 .f32) _
  refine congrArg (V c main_v13 : Vec Ideal S50000x128 .f32) (funext fun a => Fin.ext ?_)
  match a with
  | ⟨0, _⟩ => show win0_1.index t (0 : Fin 2) * 5000 + 1 * p.val = R.val; rw [e1a, hR]; omega
  | ⟨1, _⟩ => show win0_1.index t (1 : Fin 2) * 128 + 1 * j.val = j.val; rw [e1b]; omega

/-- Input window 2's block at every point is its whole array. -/
theorem blk2_apply (c : Dev nD) (t : Fin cfg0.N) (x : Fin 128) (y : Fin 128) :
    (iblk0 V c 2 t : Vec Ideal S128x128 .f32) (ix2 x y) = (V c main_arg2 : Vec Ideal S128x128 .f32) (ix2 x y) := by
  obtain ⟨e0a, e0b, e1a, e1b, e2a, e2b, e3a, e3b, e4a, e4b, e5a, e5b, e6a, e6b⟩ := idx_facts t
  unfold iblk0
  rw [View.read_apply]
  show (V c main_arg2 : Vec Ideal S128x128 .f32) _ = (V c main_arg2 : Vec Ideal S128x128 .f32) _
  refine congrArg (V c main_arg2 : Vec Ideal S128x128 .f32) (funext fun a => Fin.ext ?_)
  match a with
  | ⟨0, _⟩ => show win0_2.index t (0 : Fin 2) * 128 + 1 * x.val = x.val; rw [e2a]; omega
  | ⟨1, _⟩ => show win0_2.index t (1 : Fin 2) * 128 + 1 * y.val = y.val; rw [e2b]; omega

/-- Input window 3's block at every point is its whole array. -/
theorem blk3_apply (c : Dev nD) (t : Fin cfg0.N) (x : Fin 1) (y : Fin 128) :
    (iblk0 V c 3 t : Vec Ideal S1x128 .f32) (ix2 x y) = (V c main_v14 : Vec Ideal S1x128 .f32) (ix2 x y) := by
  obtain ⟨e0a, e0b, e1a, e1b, e2a, e2b, e3a, e3b, e4a, e4b, e5a, e5b, e6a, e6b⟩ := idx_facts t
  unfold iblk0
  rw [View.read_apply]
  show (V c main_v14 : Vec Ideal S1x128 .f32) _ = (V c main_v14 : Vec Ideal S1x128 .f32) _
  refine congrArg (V c main_v14 : Vec Ideal S1x128 .f32) (funext fun a => Fin.ext ?_)
  match a with
  | ⟨0, _⟩ => show win0_3.index t (0 : Fin 2) * 1 + 1 * x.val = x.val; rw [e3a]; omega
  | ⟨1, _⟩ => show win0_3.index t (1 : Fin 2) * 128 + 1 * y.val = y.val; rw [e3b]; omega

/-- Input window 4's block at every point is its whole array. -/
theorem blk4_apply (c : Dev nD) (t : Fin cfg0.N) (x : Fin 128) (y : Fin 128) :
    (iblk0 V c 4 t : Vec Ideal S128x128 .f32) (ix2 x y) = (V c main_arg4 : Vec Ideal S128x128 .f32) (ix2 x y) := by
  obtain ⟨e0a, e0b, e1a, e1b, e2a, e2b, e3a, e3b, e4a, e4b, e5a, e5b, e6a, e6b⟩ := idx_facts t
  unfold iblk0
  rw [View.read_apply]
  show (V c main_arg4 : Vec Ideal S128x128 .f32) _ = (V c main_arg4 : Vec Ideal S128x128 .f32) _
  refine congrArg (V c main_arg4 : Vec Ideal S128x128 .f32) (funext fun a => Fin.ext ?_)
  match a with
  | ⟨0, _⟩ => show win0_4.index t (0 : Fin 2) * 128 + 1 * x.val = x.val; rw [e4a]; omega
  | ⟨1, _⟩ => show win0_4.index t (1 : Fin 2) * 128 + 1 * y.val = y.val; rw [e4b]; omega

/-- Input window 5's block at every point is its whole array. -/
theorem blk5_apply (c : Dev nD) (t : Fin cfg0.N) (x : Fin 1) (y : Fin 128) :
    (iblk0 V c 5 t : Vec Ideal S1x128 .f32) (ix2 x y) = (V c main_v15 : Vec Ideal S1x128 .f32) (ix2 x y) := by
  obtain ⟨e0a, e0b, e1a, e1b, e2a, e2b, e3a, e3b, e4a, e4b, e5a, e5b, e6a, e6b⟩ := idx_facts t
  unfold iblk0
  rw [View.read_apply]
  show (V c main_v15 : Vec Ideal S1x128 .f32) _ = (V c main_v15 : Vec Ideal S1x128 .f32) _
  refine congrArg (V c main_v15 : Vec Ideal S1x128 .f32) (funext fun a => Fin.ext ?_)
  match a with
  | ⟨0, _⟩ => show win0_5.index t (0 : Fin 2) * 1 + 1 * x.val = x.val; rw [e5a]; omega
  | ⟨1, _⟩ => show win0_5.index t (1 : Fin 2) * 128 + 1 * y.val = y.val; rw [e5b]; omega

/-- What point `t` writes back is block `t` of the whole-array function of the arrays as the region finds them. -/
theorem flushed_eq (c : Dev nD) (t : Fin cfg0.N) :
    (dat0 V c).flushed 6 t = ((cfg0.win 6).blk t).view.read (Elt Ideal) (Gin.layerArr (V c main_arg0 : Vec Ideal S50000x128 .f32) (V c main_v13 : Vec Ideal S50000x128 .f32) (V c main_arg2 : Vec Ideal S128x128 .f32) (fun k => (V c main_v14 : Vec Ideal S1x128 .f32) (ix2 (0 : Fin 1) k)) (V c main_arg4 : Vec Ideal S128x128 .f32) (fun k => (V c main_v15 : Vec Ideal S1x128 .f32) (ix2 (0 : Fin 1) k))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e0a, e0b, e1a, e1b, e2a, e2b, e3a, e3b, e4a, e4b, e5a, e5b, e6a, e6b⟩ := idx_facts t
  have hN : t.val < 10 := lt_of_lt_of_eq t.isLt (show cfg0.N = 10 from N_0)
  funext y
  obtain ⟨p, q, rfl⟩ : ∃ (p : Fin 5000) (q : Fin 128), y = ix2 p q := ⟨y 0, y 1, eq_ix2 y⟩
  have hp : p.val < 5000 := p.isLt
  let R : Fin 50000 := ⟨5000 * t.val + p.val, by omega⟩
  refine (pay_apply (iblk0 V c 0 t) (iblk0 V c 1 t) (iblk0 V c 2 t) (iblk0 V c 3 t) (iblk0 V c 4 t) (iblk0 V c 5 t) p q).trans ?_
  have hemb : ((cfg0.win 6).blk t).view.emb (ix2 p q) = (ix2 R q : S50000x128.Idx) := by
    funext a; apply Fin.ext
    match a with
    | ⟨0, _⟩ => show win0_6.index t (0 : Fin 2) * 5000 + 1 * p.val = 5000 * t.val + p.val; rw [e6a]; omega
    | ⟨1, _⟩ => show win0_6.index t (1 : Fin 2) * 128 + 1 * q.val = q.val; rw [e6b]; omega
  rw [View.read_apply, hemb]
  have f0 : (fun j => (iblk0 V c 0 t : Vec Ideal S5000x128 .f32) (ix2 p j)) = fun j => (V c main_arg0 : Vec Ideal S50000x128 .f32) (ix2 R j) :=
    funext fun j => blk0_apply V c t p j R rfl
  have f1 : (fun j => (iblk0 V c 1 t : Vec Ideal S5000x128 .f32) (ix2 p j)) = fun j => (V c main_v13 : Vec Ideal S50000x128 .f32) (ix2 R j) :=
    funext fun j => blk1_apply V c t p j R rfl
  have f2 : (fun j k => (iblk0 V c 2 t : Vec Ideal S128x128 .f32) (ix2 j k)) = fun j k => (V c main_arg2 : Vec Ideal S128x128 .f32) (ix2 j k) :=
    funext fun j => funext fun k => blk2_apply V c t j k
  have f3 : (fun k => (iblk0 V c 3 t : Vec Ideal S1x128 .f32) (ix2 (0 : Fin 1) k)) = fun k => (V c main_v14 : Vec Ideal S1x128 .f32) (ix2 (0 : Fin 1) k) :=
    funext fun k => blk3_apply V c t 0 k
  have f4 : (fun j k => (iblk0 V c 4 t : Vec Ideal S128x128 .f32) (ix2 j k)) = fun j k => (V c main_arg4 : Vec Ideal S128x128 .f32) (ix2 j k) :=
    funext fun j => funext fun k => blk4_apply V c t j k
  have f5 : (fun k => (iblk0 V c 5 t : Vec Ideal S1x128 .f32) (ix2 (0 : Fin 1) k)) = fun k => (V c main_v15 : Vec Ideal S1x128 .f32) (ix2 (0 : Fin 1) k) :=
    funext fun k => blk5_apply V c t 0 k
  rw [f0, f1, f2, f3, f4, f5]
  rfl

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- The ten blocks of 5000 rows tile the 50000 rows: row `r` lies in the block of point `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 5000, by rw [show cfg0.N = 10 from N_0]; omega⟩
  have ht : t.val = (i 0).val / 5000 := rfl
  obtain ⟨e0a, e0b, e1a, e1b, e2a, e2b, e3a, e3b, e4a, e4b, e5a, e5b, e6a, e6b⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e6a, ht]; omega
  | ⟨1, _⟩ => show win0_6.index t (1 : Fin 2) * 128 ≤ (i 1).val ∧ (i 1).val < win0_6.index t (1 : Fin 2) * 128 + 128; rw [e6b]; omega

/-- The output array after the region: the whole-array function of the arrays the region was entered with. -/
theorem final (c : Dev nD) : (dat0 V c).arrAt 6 cfg0.N = (Gin.layerArr (V c main_arg0 : Vec Ideal S50000x128 .f32) (V c main_v13 : Vec Ideal S50000x128 .f32) (V c main_arg2 : Vec Ideal S128x128 .f32) (fun k => (V c main_v14 : Vec Ideal S1x128 .f32) (ix2 (0 : Fin 1) k)) (V c main_arg4 : Vec Ideal S128x128 .f32) (fun k => (V c main_v15 : Vec Ideal S1x128 .f32) (ix2 (0 : Fin 1) k))) :=
  (dat0 V c).arrAt_eq_of_cover 6 (Gin.layerArr (V c main_arg0 : Vec Ideal S50000x128 .f32) (V c main_v13 : Vec Ideal S50000x128 .f32) (V c main_arg2 : Vec Ideal S128x128 .f32) (fun k => (V c main_v14 : Vec Ideal S1x128 .f32) (ix2 (0 : Fin 1) k)) (V c main_arg4 : Vec Ideal S128x128 .f32) (fun k => (V c main_v15 : Vec Ideal S1x128 .f32) (ix2 (0 : Fin 1) k))) (fun t _ => flushed_eq V c t) (cover)

end Cert.KernelIdeal.Layer0

end
-- ==== Proof.Layer1.lean ====
/-
  The second region: the same layer body on the first layer's output.

  Ten grid points, 5000 rows each; the written blocks are the blocks of one whole-array function and tile it.
-/
import proofs.«181759_j86629490360414_1_alg».proof.Proof.Gen.KernelIdeal.Frame
import proofs.«181759_j86629490360414_1_alg».proof.Proof.BlockOps
import proofs.«181759_j86629490360414_1_alg».proof.Proof.ArrSpec
import Idealize.ShloMosaic.Lib.Pipeline.Value

set_option maxRecDepth 16384

noncomputable section

namespace Cert.KernelIdeal.Layer1

open Cert.KernelIdeal Cert.KernelIdeal.Gen Cert.KernelIdeal.BlockOps
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of the block: the layer's row function of row `p` of the two row blocks. -/
theorem pay_apply (v0 v1 : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k1_pay1 v0 v1 w1 b1 w2 b2 (ix2 p q)
      = Gin.layerRow (fun j => v0 (ix2 p j)) (fun j => v1 (ix2 p j)) (fun j k => w1 (ix2 j k)) (fun k => b1 (ix2 (0 : Fin 1) k))
          (fun j k => w2 (ix2 j k)) (fun k => b2 (ix2 (0 : Fin 1) k)) q := by
  unfold k1_pay1
  try dsimp only
  refine (relu_apply _ (ix2 p q)).trans ?_
  unfold Gin.layerRow
  refine congrArg Gin.relu ?_
  refine (dense128_apply _ _ _ _ _ p q).trans ?_
  refine congrArg (fun f => Gin.affine f (fun j k => w2 (ix2 j k)) (fun k => b2 (ix2 (0 : Fin 1) k)) q) (funext fun k => ?_)
  refine (truncf_apply (ψ := .bf16) _ bitsLt_bf16_f32 (ix2 p k)).trans ?_
  refine (relu_apply _ (ix2 p k)).trans (congrArg Gin.relu ?_)
  refine (dense128_apply _ _ _ _ _ p k).trans ?_
  refine congrArg (fun f => Gin.affine f (fun j k => w1 (ix2 j k)) (fun k => b1 (ix2 (0 : Fin 1) k)) k) (funext fun j => ?_)
  refine (truncf_apply (ψ := .bf16) _ bitsLt_bf16_f32 (ix2 p j)).trans ?_
  refine (addf_apply _ _ _).trans ?_
  simp only [shapeCast_self]

/-- The printed index maps over the ten grid points: the two row windows and the output move one block of 5000 rows
    per point, every other window stays on its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of input window 0's block at point `t` is row `5000 t + p` of its array. -/
theorem blk0_apply (c : Dev nD) (t : Fin cfg1.N) (p : Fin 5000) (j : Fin 128) (R : Fin 50000) (hR : R.val = 5000 * t.val + p.val) :
    (iblk1 V c 0 t : Vec Ideal S5000x128 .f32) (ix2 p j) = (V c main_v16 : Vec Ideal S50000x128 .f32) (ix2 R j) := by
  obtain ⟨e0a, e0b, e1a, e1b, e2a, e2b, e3a, e3b, e4a, e4b, e5a, e5b, e6a, e6b⟩ := idx_facts t
  unfold iblk1
  rw [View.read_apply]
  show (V c main_v16 : Vec Ideal S50000x128 .f32) _ = (V c main_v16 : Vec Ideal S50000x128 .f32) _
  refine congrArg (V c main_v16 : Vec Ideal S50000x128 .f32) (funext fun a => Fin.ext ?_)
  match a with
  | ⟨0, _⟩ => show win1_0.index t (0 : Fin 2) * 5000 + 1 * p.val = R.val; rw [e0a, hR]; omega
  | ⟨1, _⟩ => show win1_0.index t (1 : Fin 2) * 128 + 1 * j.val = j.val; rw [e0b]; omega

/-- Row `p` of input window 1's block at point `t` is row `5000 t + p` of its array. -/
theorem blk1_apply (c : Dev nD) (t : Fin cfg1.N) (p : Fin 5000) (j : Fin 128) (R : Fin 50000) (hR : R.val = 5000 * t.val + p.val) :
    (iblk1 V c 1 t : Vec Ideal S5000x128 .f32) (ix2 p j) = (V c main_v26 : Vec Ideal S50000x128 .f32) (ix2 R j) := by
  obtain ⟨e0a, e0b, e1a, e1b, e2a, e2b, e3a, e3b, e4a, e4b, e5a, e5b, e6a, e6b⟩ := idx_facts t
  unfold iblk1
  rw [View.read_apply]
  show (V c main_v26 : Vec Ideal S50000x128 .f32) _ = (V c main_v26 : Vec Ideal S50000x128 .f32) _
  refine congrArg (V c main_v26 : Vec Ideal S50000x128 .f32) (funext fun a => Fin.ext ?_)
  match a with
  | ⟨0, _⟩ => show win1_1.index t (0 : Fin 2) * 5000 + 1 * p.val = R.val; rw [e1a, hR]; omega
  | ⟨1, _⟩ => show win1_1.index t (1 : Fin 2) * 128 + 1 * j.val = j.val; rw [e1b]; omega

/-- Input window 2's block at every point is its whole array. -/
theorem blk2_apply (c : Dev nD) (t : Fin cfg1.N) (x : Fin 128) (y : Fin 128) :
    (iblk1 V c 2 t : Vec Ideal S128x128 .f32) (ix2 x y) = (V c main_arg6 : Vec Ideal S128x128 .f32) (ix2 x y) := by
  obtain ⟨e0a, e0b, e1a, e1b, e2a, e2b, e3a, e3b, e4a, e4b, e5a, e5b, e6a, e6b⟩ := idx_facts t
  unfold iblk1
  rw [View.read_apply]
  show (V c main_arg6 : Vec Ideal S128x128 .f32) _ = (V c main_arg6 : Vec Ideal S128x128 .f32) _
  refine congrArg (V c main_arg6 : Vec Ideal S128x128 .f32) (funext fun a => Fin.ext ?_)
  match a with
  | ⟨0, _⟩ => show win1_2.index t (0 : Fin 2) * 128 + 1 * x.val = x.val; rw [e2a]; omega
  | ⟨1, _⟩ => show win1_2.index t (1 : Fin 2) * 128 + 1 * y.val = y.val; rw [e2b]; omega

/-- Input window 3's block at every point is its whole array. -/
theorem blk3_apply (c : Dev nD) (t : Fin cfg1.N) (x : Fin 1) (y : Fin 128) :
    (iblk1 V c 3 t : Vec Ideal S1x128 .f32) (ix2 x y) = (V c main_v27 : Vec Ideal S1x128 .f32) (ix2 x y) := by
  obtain ⟨e0a, e0b, e1a, e1b, e2a, e2b, e3a, e3b, e4a, e4b, e5a, e5b, e6a, e6b⟩ := idx_facts t
  unfold iblk1
  rw [View.read_apply]
  show (V c main_v27 : Vec Ideal S1x128 .f32) _ = (V c main_v27 : Vec Ideal S1x128 .f32) _
  refine congrArg (V c main_v27 : Vec Ideal S1x128 .f32) (funext fun a => Fin.ext ?_)
  match a with
  | ⟨0, _⟩ => show win1_3.index t (0 : Fin 2) * 1 + 1 * x.val = x.val; rw [e3a]; omega
  | ⟨1, _⟩ => show win1_3.index t (1 : Fin 2) * 128 + 1 * y.val = y.val; rw [e3b]; omega

/-- Input window 4's block at every point is its whole array. -/
theorem blk4_apply (c : Dev nD) (t : Fin cfg1.N) (x : Fin 128) (y : Fin 128) :
    (iblk1 V c 4 t : Vec Ideal S128x128 .f32) (ix2 x y) = (V c main_arg8 : Vec Ideal S128x128 .f32) (ix2 x y) := by
  obtain ⟨e0a, e0b, e1a, e1b, e2a, e2b, e3a, e3b, e4a, e4b, e5a, e5b, e6a, e6b⟩ := idx_facts t
  unfold iblk1
  rw [View.read_apply]
  show (V c main_arg8 : Vec Ideal S128x128 .f32) _ = (V c main_arg8 : Vec Ideal S128x128 .f32) _
  refine congrArg (V c main_arg8 : Vec Ideal S128x128 .f32) (funext fun a => Fin.ext ?_)
  match a with
  | ⟨0, _⟩ => show win1_4.index t (0 : Fin 2) * 128 + 1 * x.val = x.val; rw [e4a]; omega
  | ⟨1, _⟩ => show win1_4.index t (1 : Fin 2) * 128 + 1 * y.val = y.val; rw [e4b]; omega

/-- Input window 5's block at every point is its whole array. -/
theorem blk5_apply (c : Dev nD) (t : Fin cfg1.N) (x : Fin 1) (y : Fin 128) :
    (iblk1 V c 5 t : Vec Ideal S1x128 .f32) (ix2 x y) = (V c main_v28 : Vec Ideal S1x128 .f32) (ix2 x y) := by
  obtain ⟨e0a, e0b, e1a, e1b, e2a, e2b, e3a, e3b, e4a, e4b, e5a, e5b, e6a, e6b⟩ := idx_facts t
  unfold iblk1
  rw [View.read_apply]
  show (V c main_v28 : Vec Ideal S1x128 .f32) _ = (V c main_v28 : Vec Ideal S1x128 .f32) _
  refine congrArg (V c main_v28 : Vec Ideal S1x128 .f32) (funext fun a => Fin.ext ?_)
  match a with
  | ⟨0, _⟩ => show win1_5.index t (0 : Fin 2) * 1 + 1 * x.val = x.val; rw [e5a]; omega
  | ⟨1, _⟩ => show win1_5.index t (1 : Fin 2) * 128 + 1 * y.val = y.val; rw [e5b]; omega

/-- What point `t` writes back is block `t` of the whole-array function of the arrays as the region finds them. -/
theorem flushed_eq (c : Dev nD) (t : Fin cfg1.N) :
    (dat1 V c).flushed 6 t = ((cfg1.win 6).blk t).view.read (Elt Ideal) (Gin.layerArr (V c main_v16 : Vec Ideal S50000x128 .f32) (V c main_v26 : Vec Ideal S50000x128 .f32) (V c main_arg6 : Vec Ideal S128x128 .f32) (fun k => (V c main_v27 : Vec Ideal S1x128 .f32) (ix2 (0 : Fin 1) k)) (V c main_arg8 : Vec Ideal S128x128 .f32) (fun k => (V c main_v28 : Vec Ideal S1x128 .f32) (ix2 (0 : Fin 1) k))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e0a, e0b, e1a, e1b, e2a, e2b, e3a, e3b, e4a, e4b, e5a, e5b, e6a, e6b⟩ := idx_facts t
  have hN : t.val < 10 := lt_of_lt_of_eq t.isLt (show cfg1.N = 10 from N_1)
  funext y
  obtain ⟨p, q, rfl⟩ : ∃ (p : Fin 5000) (q : Fin 128), y = ix2 p q := ⟨y 0, y 1, eq_ix2 y⟩
  have hp : p.val < 5000 := p.isLt
  let R : Fin 50000 := ⟨5000 * t.val + p.val, by omega⟩
  refine (pay_apply (iblk1 V c 0 t) (iblk1 V c 1 t) (iblk1 V c 2 t) (iblk1 V c 3 t) (iblk1 V c 4 t) (iblk1 V c 5 t) p q).trans ?_
  have hemb : ((cfg1.win 6).blk t).view.emb (ix2 p q) = (ix2 R q : S50000x128.Idx) := by
    funext a; apply Fin.ext
    match a with
    | ⟨0, _⟩ => show win1_6.index t (0 : Fin 2) * 5000 + 1 * p.val = 5000 * t.val + p.val; rw [e6a]; omega
    | ⟨1, _⟩ => show win1_6.index t (1 : Fin 2) * 128 + 1 * q.val = q.val; rw [e6b]; omega
  rw [View.read_apply, hemb]
  have f0 : (fun j => (iblk1 V c 0 t : Vec Ideal S5000x128 .f32) (ix2 p j)) = fun j => (V c main_v16 : Vec Ideal S50000x128 .f32) (ix2 R j) :=
    funext fun j => blk0_apply V c t p j R rfl
  have f1 : (fun j => (iblk1 V c 1 t : Vec Ideal S5000x128 .f32) (ix2 p j)) = fun j => (V c main_v26 : Vec Ideal S50000x128 .f32) (ix2 R j) :=
    funext fun j => blk1_apply V c t p j R rfl
  have f2 : (fun j k => (iblk1 V c 2 t : Vec Ideal S128x128 .f32) (ix2 j k)) = fun j k => (V c main_arg6 : Vec Ideal S128x128 .f32) (ix2 j k) :=
    funext fun j => funext fun k => blk2_apply V c t j k
  have f3 : (fun k => (iblk1 V c 3 t : Vec Ideal S1x128 .f32) (ix2 (0 : Fin 1) k)) = fun k => (V c main_v27 : Vec Ideal S1x128 .f32) (ix2 (0 : Fin 1) k) :=
    funext fun k => blk3_apply V c t 0 k
  have f4 : (fun j k => (iblk1 V c 4 t : Vec Ideal S128x128 .f32) (ix2 j k)) = fun j k => (V c main_arg8 : Vec Ideal S128x128 .f32) (ix2 j k) :=
    funext fun j => funext fun k => blk4_apply V c t j k
  have f5 : (fun k => (iblk1 V c 5 t : Vec Ideal S1x128 .f32) (ix2 (0 : Fin 1) k)) = fun k => (V c main_v28 : Vec Ideal S1x128 .f32) (ix2 (0 : Fin 1) k) :=
    funext fun k => blk5_apply V c t 0 k
  rw [f0, f1, f2, f3, f4, f5]
  rfl

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- The ten blocks of 5000 rows tile the 50000 rows: row `r` lies in the block of point `r / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 5000, by rw [show cfg1.N = 10 from N_1]; omega⟩
  have ht : t.val = (i 0).val / 5000 := rfl
  obtain ⟨e0a, e0b, e1a, e1b, e2a, e2b, e3a, e3b, e4a, e4b, e5a, e5b, e6a, e6b⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e6a, ht]; omega
  | ⟨1, _⟩ => show win1_6.index t (1 : Fin 2) * 128 ≤ (i 1).val ∧ (i 1).val < win1_6.index t (1 : Fin 2) * 128 + 128; rw [e6b]; omega

/-- The output array after the region: the whole-array function of the arrays the region was entered with. -/
theorem final (c : Dev nD) : (dat1 V c).arrAt 6 cfg1.N = (Gin.layerArr (V c main_v16 : Vec Ideal S50000x128 .f32) (V c main_v26 : Vec Ideal S50000x128 .f32) (V c main_arg6 : Vec Ideal S128x128 .f32) (fun k => (V c main_v27 : Vec Ideal S1x128 .f32) (ix2 (0 : Fin 1) k)) (V c main_arg8 : Vec Ideal S128x128 .f32) (fun k => (V c main_v28 : Vec Ideal S1x128 .f32) (ix2 (0 : Fin 1) k))) :=
  (dat1 V c).arrAt_eq_of_cover 6 (Gin.layerArr (V c main_v16 : Vec Ideal S50000x128 .f32) (V c main_v26 : Vec Ideal S50000x128 .f32) (V c main_arg6 : Vec Ideal S128x128 .f32) (fun k => (V c main_v27 : Vec Ideal S1x128 .f32) (ix2 (0 : Fin 1) k)) (V c main_arg8 : Vec Ideal S128x128 .f32) (fun k => (V c main_v28 : Vec Ideal S1x128 .f32) (ix2 (0 : Fin 1) k))) (fun t _ => flushed_eq V c t) (cover)

end Cert.KernelIdeal.Layer1

end
-- ==== Proof.Layer2.lean ====
/-
  The third region: the third layer and the output head in one body.

  Ten grid points, 5000 rows each, the four weight matrices and four bias rows whole; a row of the 64-column result is
  the head's row function of the layer's row function of the same row of the two row arrays. The written blocks are the
  blocks of one whole-array function and tile it.
-/
import proofs.«181759_j86629490360414_1_alg».proof.Proof.Gen.KernelIdeal.Frame
import proofs.«181759_j86629490360414_1_alg».proof.Proof.BlockOps
import proofs.«181759_j86629490360414_1_alg».proof.Proof.ArrSpec
import Idealize.ShloMosaic.Lib.Pipeline.Value

set_option maxRecDepth 16384

noncomputable section

namespace Cert.KernelIdeal.Layer2

open Cert.KernelIdeal Cert.KernelIdeal.Gen Cert.KernelIdeal.BlockOps
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The stored value at row `p`, column `q` of the block: the head's row function of the layer's row function of
    row `p` of the two row blocks. -/
theorem pay_apply (v0 v1 : Vec Ideal S5000x128 .f32) (w1 : Vec Ideal S128x128 .f32) (b1 : Vec Ideal S1x128 .f32)
    (w2 : Vec Ideal S128x128 .f32) (b2 : Vec Ideal S1x128 .f32) (l1 : Vec Ideal S128x128 .f32) (c1 : Vec Ideal S1x128 .f32)
    (l2 : Vec Ideal S128x64 .f32) (c2 : Vec Ideal S1x64 .f32) (p : Fin 5000) (q : Fin 64) :
    k2_pay1 (k2_pay2 v0 v1 w1 b1 w2 b2 l1 c1) l2 c2 (ix2 p q)
      = Gin.headRow (Gin.layerRow (fun j => v0 (ix2 p j)) (fun j => v1 (ix2 p j)) (fun j k => w1 (ix2 j k)) (fun k => b1 (ix2 (0 : Fin 1) k))
          (fun j k => w2 (ix2 j k)) (fun k => b2 (ix2 (0 : Fin 1) k)))
          (fun j k => l1 (ix2 j k)) (fun k => c1 (ix2 (0 : Fin 1) k)) (fun j k => l2 (ix2 j k)) (fun k => c2 (ix2 (0 : Fin 1) k)) q := by
  unfold k2_pay1
  try dsimp only
  refine (dense64_apply _ _ _ _ _ p q).trans ?_
  unfold Gin.headRow
  refine congrArg (fun f => Gin.affine f (fun j k => l2 (ix2 j k)) (fun k => c2 (ix2 (0 : Fin 1) k)) q) (funext fun k' => ?_)
  unfold k2_pay2
  try dsimp only
  refine (truncf_apply (ψ := .bf16) _ bitsLt_bf16_f32 (ix2 p k')).trans ?_
  refine (relu_apply _ (ix2 p k')).trans (congrArg Gin.relu ?_)
  refine (dense128_apply _ _ _ _ _ p k').trans ?_
  refine congrArg (fun f => Gin.affine f (fun j k => l1 (ix2 j k)) (fun k => c1 (ix2 (0 : Fin 1) k)) k') (funext fun k'' => ?_)
  refine (truncf_apply (ψ := .bf16) _ bitsLt_bf16_f32 (ix2 p k'')).trans ?_
  refine (relu_apply _ (ix2 p k'')).trans ?_
  unfold Gin.layerRow
  refine congrArg Gin.relu ?_
  refine (dense128_apply _ _ _ _ _ p k'').trans ?_
  refine congrArg (fun f => Gin.affine f (fun j k => w2 (ix2 j k)) (fun k => b2 (ix2 (0 : Fin 1) k)) k'') (funext fun k => ?_)
  refine (truncf_apply (ψ := .bf16) _ bitsLt_bf16_f32 (ix2 p k)).trans ?_
  refine (relu_apply _ (ix2 p k)).trans (congrArg Gin.relu ?_)
  refine (dense128_apply _ _ _ _ _ p k).trans ?_
  refine congrArg (fun f => Gin.affine f (fun j k => w1 (ix2 j k)) (fun k => b1 (ix2 (0 : Fin 1) k)) k) (funext fun j => ?_)
  refine (truncf_apply (ψ := .bf16) _ bitsLt_bf16_f32 (ix2 p j)).trans ?_
  refine (addf_apply _ _ _).trans ?_
  simp only [shapeCast_self]

/-- The printed index maps over the ten grid points: the two row windows and the output move one block of 5000 rows
    per point, every other window stays on its one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Row `p` of input window 0's block at point `t` is row `5000 t + p` of its array. -/
theorem blk0_apply (c : Dev nD) (t : Fin cfg2.N) (p : Fin 5000) (j : Fin 128) (R : Fin 50000) (hR : R.val = 5000 * t.val + p.val) :
    (iblk2 V c 0 t : Vec Ideal S5000x128 .f32) (ix2 p j) = (V c main_v29 : Vec Ideal S50000x128 .f32) (ix2 R j) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_v29 : Vec Ideal S50000x128 .f32) _ = (V c main_v29 : Vec Ideal S50000x128 .f32) _
  refine congrArg (V c main_v29 : Vec Ideal S50000x128 .f32) (funext fun a => Fin.ext ?_)
  match a with
  | ⟨0, _⟩ => show win2_0.index t (0 : Fin 2) * 5000 + 1 * p.val = R.val; rw [e0a, hR]; omega
  | ⟨1, _⟩ => show win2_0.index t (1 : Fin 2) * 128 + 1 * j.val = j.val; rw [e0b]; omega

/-- Row `p` of input window 1's block at point `t` is row `5000 t + p` of its array. -/
theorem blk1_apply (c : Dev nD) (t : Fin cfg2.N) (p : Fin 5000) (j : Fin 128) (R : Fin 50000) (hR : R.val = 5000 * t.val + p.val) :
    (iblk2 V c 1 t : Vec Ideal S5000x128 .f32) (ix2 p j) = (V c main_v39 : Vec Ideal S50000x128 .f32) (ix2 R j) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_v39 : Vec Ideal S50000x128 .f32) _ = (V c main_v39 : Vec Ideal S50000x128 .f32) _
  refine congrArg (V c main_v39 : Vec Ideal S50000x128 .f32) (funext fun a => Fin.ext ?_)
  match a with
  | ⟨0, _⟩ => show win2_1.index t (0 : Fin 2) * 5000 + 1 * p.val = R.val; rw [e1a, hR]; omega
  | ⟨1, _⟩ => show win2_1.index t (1 : Fin 2) * 128 + 1 * j.val = j.val; rw [e1b]; omega

/-- Input window 2's block at every point is its whole array. -/
theorem blk2_apply (c : Dev nD) (t : Fin cfg2.N) (x : Fin 128) (y : Fin 128) :
    (iblk2 V c 2 t : Vec Ideal S128x128 .f32) (ix2 x y) = (V c main_arg10 : Vec Ideal S128x128 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_arg10 : Vec Ideal S128x128 .f32) _ = (V c main_arg10 : Vec Ideal S128x128 .f32) _
  refine congrArg (V c main_arg10 : Vec Ideal S128x128 .f32) (funext fun a => Fin.ext ?_)
  match a with
  | ⟨0, _⟩ => show win2_2.index t (0 : Fin 2) * 128 + 1 * x.val = x.val; rw [e2a]; omega
  | ⟨1, _⟩ => show win2_2.index t (1 : Fin 2) * 128 + 1 * y.val = y.val; rw [e2b]; omega

/-- Input window 3's block at every point is its whole array. -/
theorem blk3_apply (c : Dev nD) (t : Fin cfg2.N) (x : Fin 1) (y : Fin 128) :
    (iblk2 V c 3 t : Vec Ideal S1x128 .f32) (ix2 x y) = (V c main_v40 : Vec Ideal S1x128 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_v40 : Vec Ideal S1x128 .f32) _ = (V c main_v40 : Vec Ideal S1x128 .f32) _
  refine congrArg (V c main_v40 : Vec Ideal S1x128 .f32) (funext fun a => Fin.ext ?_)
  match a with
  | ⟨0, _⟩ => show win2_3.index t (0 : Fin 2) * 1 + 1 * x.val = x.val; rw [e3a]; omega
  | ⟨1, _⟩ => show win2_3.index t (1 : Fin 2) * 128 + 1 * y.val = y.val; rw [e3b]; omega

/-- Input window 4's block at every point is its whole array. -/
theorem blk4_apply (c : Dev nD) (t : Fin cfg2.N) (x : Fin 128) (y : Fin 128) :
    (iblk2 V c 4 t : Vec Ideal S128x128 .f32) (ix2 x y) = (V c main_arg12 : Vec Ideal S128x128 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_arg12 : Vec Ideal S128x128 .f32) _ = (V c main_arg12 : Vec Ideal S128x128 .f32) _
  refine congrArg (V c main_arg12 : Vec Ideal S128x128 .f32) (funext fun a => Fin.ext ?_)
  match a with
  | ⟨0, _⟩ => show win2_4.index t (0 : Fin 2) * 128 + 1 * x.val = x.val; rw [e4a]; omega
  | ⟨1, _⟩ => show win2_4.index t (1 : Fin 2) * 128 + 1 * y.val = y.val; rw [e4b]; omega

/-- Input window 5's block at every point is its whole array. -/
theorem blk5_apply (c : Dev nD) (t : Fin cfg2.N) (x : Fin 1) (y : Fin 128) :
    (iblk2 V c 5 t : Vec Ideal S1x128 .f32) (ix2 x y) = (V c main_v41 : Vec Ideal S1x128 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_v41 : Vec Ideal S1x128 .f32) _ = (V c main_v41 : Vec Ideal S1x128 .f32) _
  refine congrArg (V c main_v41 : Vec Ideal S1x128 .f32) (funext fun a => Fin.ext ?_)
  match a with
  | ⟨0, _⟩ => show win2_5.index t (0 : Fin 2) * 1 + 1 * x.val = x.val; rw [e5a]; omega
  | ⟨1, _⟩ => show win2_5.index t (1 : Fin 2) * 128 + 1 * y.val = y.val; rw [e5b]; omega

/-- Input window 6's block at every point is its whole array. -/
theorem blk6_apply (c : Dev nD) (t : Fin cfg2.N) (x : Fin 128) (y : Fin 128) :
    (iblk2 V c 6 t : Vec Ideal S128x128 .f32) (ix2 x y) = (V c main_arg14 : Vec Ideal S128x128 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_arg14 : Vec Ideal S128x128 .f32) _ = (V c main_arg14 : Vec Ideal S128x128 .f32) _
  refine congrArg (V c main_arg14 : Vec Ideal S128x128 .f32) (funext fun a => Fin.ext ?_)
  match a with
  | ⟨0, _⟩ => show win2_6.index t (0 : Fin 2) * 128 + 1 * x.val = x.val; rw [e6a]; omega
  | ⟨1, _⟩ => show win2_6.index t (1 : Fin 2) * 128 + 1 * y.val = y.val; rw [e6b]; omega

/-- Input window 7's block at every point is its whole array. -/
theorem blk7_apply (c : Dev nD) (t : Fin cfg2.N) (x : Fin 1) (y : Fin 128) :
    (iblk2 V c 7 t : Vec Ideal S1x128 .f32) (ix2 x y) = (V c main_v42 : Vec Ideal S1x128 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_v42 : Vec Ideal S1x128 .f32) _ = (V c main_v42 : Vec Ideal S1x128 .f32) _
  refine congrArg (V c main_v42 : Vec Ideal S1x128 .f32) (funext fun a => Fin.ext ?_)
  match a with
  | ⟨0, _⟩ => show win2_7.index t (0 : Fin 2) * 1 + 1 * x.val = x.val; rw [e7a]; omega
  | ⟨1, _⟩ => show win2_7.index t (1 : Fin 2) * 128 + 1 * y.val = y.val; rw [e7b]; omega

/-- Input window 8's block at every point is its whole array. -/
theorem blk8_apply (c : Dev nD) (t : Fin cfg2.N) (x : Fin 128) (y : Fin 64) :
    (iblk2 V c 8 t : Vec Ideal S128x64 .f32) (ix2 x y) = (V c main_arg16 : Vec Ideal S128x64 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_arg16 : Vec Ideal S128x64 .f32) _ = (V c main_arg16 : Vec Ideal S128x64 .f32) _
  refine congrArg (V c main_arg16 : Vec Ideal S128x64 .f32) (funext fun a => Fin.ext ?_)
  match a with
  | ⟨0, _⟩ => show win2_8.index t (0 : Fin 2) * 128 + 1 * x.val = x.val; rw [e8a]; omega
  | ⟨1, _⟩ => show win2_8.index t (1 : Fin 2) * 64 + 1 * y.val = y.val; rw [e8b]; omega

/-- Input window 9's block at every point is its whole array. -/
theorem blk9_apply (c : Dev nD) (t : Fin cfg2.N) (x : Fin 1) (y : Fin 64) :
    (iblk2 V c 9 t : Vec Ideal S1x64 .f32) (ix2 x y) = (V c main_v43 : Vec Ideal S1x64 .f32) (ix2 x y) := by
  obtain ⟨e0a, e0b, e1a, e1b, e2a, e2b, e3a, e3b, e4a, e4b, e5a, e5b, e6a, e6b, e7a, e7b, e8a, e8b, e9a, e9b, e10a, e10b⟩ := idx_facts t
  unfold iblk2
  rw [View.read_apply]
  show (V c main_v43 : Vec Ideal S1x64 .f32) _ = (V c main_v43 : Vec Ideal S1x64 .f32) _
  refine congrArg (V c main_v43 : Vec Ideal S1x64 .f32) (funext fun a => Fin.ext ?_)
  match a with
  | ⟨0, _⟩ => show win2_9.index t (0 : Fin 2) * 1 + 1 * x.val = x.val; rw [e9a]; omega
  | ⟨1, _⟩ => show win2_9.index t (1 : Fin 2) * 64 + 1 * y.val = y.val; rw [e9b]; omega

/-- What point `t` writes back is block `t` of the whole-array function of the arrays as the region finds them. -/
theorem flushed_eq (c : Dev nD) (t : Fin cfg2.N) :
    (dat2 V c).flushed 10 t = ((cfg2.win 10).blk t).view.read (Elt Ideal) (Gin.headArr (Gin.layerArr (V c main_v29 : Vec Ideal S50000x128 .f32) (V c main_v39 : Vec Ideal S50000x128 .f32) (V c main_arg10 : Vec Ideal S128x128 .f32) (fun k => (V c main_v40 : Vec Ideal S1x128 .f32) (ix2 (0 : Fin 1) k)) (V c main_arg12 : Vec Ideal S128x128 .f32) (fun k => (V c main_v41 : Vec Ideal S1x128 .f32) (ix2 (0 : Fin 1) k))) (V c main_arg14 : Vec Ideal S128x128 .f32) (fun k => (V c main_v42 : Vec Ideal S1x128 .f32) (ix2 (0 : Fin 1) k)) (V c main_arg16 : Vec Ideal S128x64 .f32) (fun k => (V c main_v43 : Vec Ideal S1x64 .f32) (ix2 (0 : Fin 1) k))) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x128) hz, View.ld_unit_zero (S := S1x128) hz, View.ld_unit_zero (S := S128x64) hz, View.ld_unit_zero (S := S1x64) hz]
  obtain ⟨e0a, e0b, e1a, e1b, e2a, e2b, e3a, e3b, e4a, e4b, e5a, e5b, e6a, e6b, e7a, e7b, e8a, e8b, e9a, e9b, e10a, e10b⟩ := idx_facts t
  have hN : t.val < 10 := lt_of_lt_of_eq t.isLt (show cfg2.N = 10 from N_2)
  funext y
  obtain ⟨p, q, rfl⟩ : ∃ (p : Fin 5000) (q : Fin 64), y = ix2 p q := ⟨y 0, y 1, eq_ix2 y⟩
  have hp : p.val < 5000 := p.isLt
  let R : Fin 50000 := ⟨5000 * t.val + p.val, by omega⟩
  refine (pay_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p q).trans ?_
  have hemb : ((cfg2.win 10).blk t).view.emb (ix2 p q) = (ix2 R q : S50000x64.Idx) := by
    funext a; apply Fin.ext
    match a with
    | ⟨0, _⟩ => show win2_10.index t (0 : Fin 2) * 5000 + 1 * p.val = 5000 * t.val + p.val; rw [e10a]; omega
    | ⟨1, _⟩ => show win2_10.index t (1 : Fin 2) * 64 + 1 * q.val = q.val; rw [e10b]; omega
  rw [View.read_apply, hemb]
  have f0 : (fun j => (iblk2 V c 0 t : Vec Ideal S5000x128 .f32) (ix2 p j)) = fun j => (V c main_v29 : Vec Ideal S50000x128 .f32) (ix2 R j) :=
    funext fun j => blk0_apply V c t p j R rfl
  have f1 : (fun j => (iblk2 V c 1 t : Vec Ideal S5000x128 .f32) (ix2 p j)) = fun j => (V c main_v39 : Vec Ideal S50000x128 .f32) (ix2 R j) :=
    funext fun j => blk1_apply V c t p j R rfl
  have f2 : (fun j k => (iblk2 V c 2 t : Vec Ideal S128x128 .f32) (ix2 j k)) = fun j k => (V c main_arg10 : Vec Ideal S128x128 .f32) (ix2 j k) :=
    funext fun j => funext fun k => blk2_apply V c t j k
  have f3 : (fun k => (iblk2 V c 3 t : Vec Ideal S1x128 .f32) (ix2 (0 : Fin 1) k)) = fun k => (V c main_v40 : Vec Ideal S1x128 .f32) (ix2 (0 : Fin 1) k) :=
    funext fun k => blk3_apply V c t 0 k
  have f4 : (fun j k => (iblk2 V c 4 t : Vec Ideal S128x128 .f32) (ix2 j k)) = fun j k => (V c main_arg12 : Vec Ideal S128x128 .f32) (ix2 j k) :=
    funext fun j => funext fun k => blk4_apply V c t j k
  have f5 : (fun k => (iblk2 V c 5 t : Vec Ideal S1x128 .f32) (ix2 (0 : Fin 1) k)) = fun k => (V c main_v41 : Vec Ideal S1x128 .f32) (ix2 (0 : Fin 1) k) :=
    funext fun k => blk5_apply V c t 0 k
  have f6 : (fun j k => (iblk2 V c 6 t : Vec Ideal S128x128 .f32) (ix2 j k)) = fun j k => (V c main_arg14 : Vec Ideal S128x128 .f32) (ix2 j k) :=
    funext fun j => funext fun k => blk6_apply V c t j k
  have f7 : (fun k => (iblk2 V c 7 t : Vec Ideal S1x128 .f32) (ix2 (0 : Fin 1) k)) = fun k => (V c main_v42 : Vec Ideal S1x128 .f32) (ix2 (0 : Fin 1) k) :=
    funext fun k => blk7_apply V c t 0 k
  have f8 : (fun j k => (iblk2 V c 8 t : Vec Ideal S128x64 .f32) (ix2 j k)) = fun j k => (V c main_arg16 : Vec Ideal S128x64 .f32) (ix2 j k) :=
    funext fun j => funext fun k => blk8_apply V c t j k
  have f9 : (fun k => (iblk2 V c 9 t : Vec Ideal S1x64 .f32) (ix2 (0 : Fin 1) k)) = fun k => (V c main_v43 : Vec Ideal S1x64 .f32) (ix2 (0 : Fin 1) k) :=
    funext fun k => blk9_apply V c t 0 k
  rw [f0, f1, f2, f3, f4, f5, f6, f7, f8, f9]
  rfl

/-- An index of the output array is in point `t`'s block iff each coordinate is in the block's range on its axis. -/
theorem mem_blk (t : Fin cfg2.N) (i : S50000x64.Idx) :
    i ∈ ((cfg2.win 10).blk t).view.set ↔ ∀ a : Fin 2, win2_10.index t a * S5000x64.size a ≤ (i a).val ∧ (i a).val < win2_10.index t a * S5000x64.size a + S5000x64.size a := by
  show i ∈ ((View.whole main_v44).slice (win2_10.rect t)).set ↔ _
  rw [View.set_slice_whole, Rect.mem_set_unit]
  exact Iff.rfl

/-- The ten blocks of 5000 rows tile the 50000 rows: row `r` lies in the block of point `r / 5000`. -/
theorem cover (i : S50000x64.Idx) : ∃ t : Fin cfg2.N, (cfg2.win 10).flush t = true ∧ i ∈ ((cfg2.win 10).blk t).view.set := by
  have hi0 : (i 0).val < 50000 := (i 0).isLt
  have hi1 : (i 1).val < 64 := (i 1).isLt
  let t : Fin cfg2.N := ⟨(i 0).val / 5000, by rw [show cfg2.N = 10 from N_2]; omega⟩
  have ht : t.val = (i 0).val / 5000 := rfl
  obtain ⟨e0a, e0b, e1a, e1b, e2a, e2b, e3a, e3b, e4a, e4b, e5a, e5b, e6a, e6b, e7a, e7b, e8a, e8b, e9a, e9b, e10a, e10b⟩ := idx_facts t
  refine ⟨t, flush2_10 t, ?_⟩
  rw [mem_blk]
  intro a
  match a with
  | ⟨0, _⟩ => show win2_10.index t (0 : Fin 2) * 5000 ≤ (i 0).val ∧ (i 0).val < win2_10.index t (0 : Fin 2) * 5000 + 5000; rw [e10a, ht]; omega
  | ⟨1, _⟩ => show win2_10.index t (1 : Fin 2) * 64 ≤ (i 1).val ∧ (i 1).val < win2_10.index t (1 : Fin 2) * 64 + 64; rw [e10b]; omega

/-- The output array after the region: the whole-array function of the arrays the region was entered with. -/
theorem final (c : Dev nD) : (dat2 V c).arrAt 10 cfg2.N = (Gin.headArr (Gin.layerArr (V c main_v29 : Vec Ideal S50000x128 .f32) (V c main_v39 : Vec Ideal S50000x128 .f32) (V c main_arg10 : Vec Ideal S128x128 .f32) (fun k => (V c main_v40 : Vec Ideal S1x128 .f32) (ix2 (0 : Fin 1) k)) (V c main_arg12 : Vec Ideal S128x128 .f32) (fun k => (V c main_v41 : Vec Ideal S1x128 .f32) (ix2 (0 : Fin 1) k))) (V c main_arg14 : Vec Ideal S128x128 .f32) (fun k => (V c main_v42 : Vec Ideal S1x128 .f32) (ix2 (0 : Fin 1) k)) (V c main_arg16 : Vec Ideal S128x64 .f32) (fun k => (V c main_v43 : Vec Ideal S1x64 .f32) (ix2 (0 : Fin 1) k))) :=
  (dat2 V c).arrAt_eq_of_cover 10 (Gin.headArr (Gin.layerArr (V c main_v29 : Vec Ideal S50000x128 .f32) (V c main_v39 : Vec Ideal S50000x128 .f32) (V c main_arg10 : Vec Ideal S128x128 .f32) (fun k => (V c main_v40 : Vec Ideal S1x128 .f32) (ix2 (0 : Fin 1) k)) (V c main_arg12 : Vec Ideal S128x128 .f32) (fun k => (V c main_v41 : Vec Ideal S1x128 .f32) (ix2 (0 : Fin 1) k))) (V c main_arg14 : Vec Ideal S128x128 .f32) (fun k => (V c main_v42 : Vec Ideal S1x128 .f32) (ix2 (0 : Fin 1) k)) (V c main_arg16 : Vec Ideal S128x64 .f32) (fun k => (V c main_v43 : Vec Ideal S1x64 .f32) (ix2 (0 : Fin 1) k))) (fun t _ => flushed_eq V c t) (cover)

end Cert.KernelIdeal.Layer2

end
-- ==== Proof.Net.lean ====
/-
  The whole network as one function of its arguments and of the map `agg` from node features to neighbour sums:
  three layers, each on the previous layer's output and its neighbour sums, then the output head.
-/
import proofs.«181759_j86629490360414_1_alg».proof.Proof.ArrSpec

noncomputable section

namespace Gin

open Idealize.ShloMosaic

/-- The features after the first layer. -/
def feat1 (agg : ((⟨2, ![50000, 128]⟩ : Shape).Idx → EReal) → (⟨2, ![50000, 128]⟩ : Shape).Idx → EReal)
    (x : (⟨2, ![50000, 128]⟩ : Shape).Idx → EReal)
    (w11 : (⟨2, ![128, 128]⟩ : Shape).Idx → EReal) (b11 : Fin 128 → EReal) (w12 : (⟨2, ![128, 128]⟩ : Shape).Idx → EReal) (b12 : Fin 128 → EReal) :
    (⟨2, ![50000, 128]⟩ : Shape).Idx → EReal :=
  layerArr x (agg x) w11 b11 w12 b12

/-- The features after the second layer. -/
def feat2 (agg : ((⟨2, ![50000, 128]⟩ : Shape).Idx → EReal) → (⟨2, ![50000, 128]⟩ : Shape).Idx → EReal)
    (x : (⟨2, ![50000, 128]⟩ : Shape).Idx → EReal)
    (w11 : (⟨2, ![128, 128]⟩ : Shape).Idx → EReal) (b11 : Fin 128 → EReal) (w12 : (⟨2, ![128, 128]⟩ : Shape).Idx → EReal) (b12 : Fin 128 → EReal)
    (w21 : (⟨2, ![128, 128]⟩ : Shape).Idx → EReal) (b21 : Fin 128 → EReal) (w22 : (⟨2, ![128, 128]⟩ : Shape).Idx → EReal) (b22 : Fin 128 → EReal) :
    (⟨2, ![50000, 128]⟩ : Shape).Idx → EReal :=
  layerArr (feat1 agg x w11 b11 w12 b12) (agg (feat1 agg x w11 b11 w12 b12)) w21 b21 w22 b22

/-- The network's result: the third layer on the second's output, then the head. -/
def net (agg : ((⟨2, ![50000, 128]⟩ : Shape).Idx → EReal) → (⟨2, ![50000, 128]⟩ : Shape).Idx → EReal)
    (x : (⟨2, ![50000, 128]⟩ : Shape).Idx → EReal)
    (w11 : (⟨2, ![128, 128]⟩ : Shape).Idx → EReal) (b11 : Fin 128 → EReal) (w12 : (⟨2, ![128, 128]⟩ : Shape).Idx → EReal) (b12 : Fin 128 → EReal)
    (w21 : (⟨2, ![128, 128]⟩ : Shape).Idx → EReal) (b21 : Fin 128 → EReal) (w22 : (⟨2, ![128, 128]⟩ : Shape).Idx → EReal) (b22 : Fin 128 → EReal)
    (w31 : (⟨2, ![128, 128]⟩ : Shape).Idx → EReal) (b31 : Fin 128 → EReal) (w32 : (⟨2, ![128, 128]⟩ : Shape).Idx → EReal) (b32 : Fin 128 → EReal)
    (l1 : (⟨2, ![128, 128]⟩ : Shape).Idx → EReal) (c1 : Fin 128 → EReal) (l2 : (⟨2, ![128, 64]⟩ : Shape).Idx → EReal) (c2 : Fin 64 → EReal) :
    (⟨2, ![50000, 64]⟩ : Shape).Idx → EReal :=
  headArr (layerArr (feat2 agg x w11 b11 w12 b12 w21 b21 w22 b22) (agg (feat2 agg x w11 b11 w12 b12 w21 b21 w22 b22)) w31 b31 w32 b32)
    l1 c1 l2 c2

end Gin

end
-- ==== Proof.KernelValue.lean ====
/-
  The kernel program's result as the network function.

  Boundary by boundary: the first region's output array is the first layer of the input features and their neighbour
  sums; the second stretch leaves it in place and aggregates it, and the second region's output is the second layer;
  the third stretch aggregates that, and the third region's output — the program's result — is the third layer and the
  head. Each region's array is the whole-array function of the arrays it was entered with (`Layer0/1/2`), and those are
  the launch arguments, the bias vectors as rows, and the previous outputs (`HostChain`).
-/
import proofs.«181759_j86629490360414_1_alg».proof.Proof.Boundary
import proofs.«181759_j86629490360414_1_alg».proof.Proof.HostChain
import proofs.«181759_j86629490360414_1_alg».proof.Proof.Layer0
import proofs.«181759_j86629490360414_1_alg».proof.Proof.Layer1
import proofs.«181759_j86629490360414_1_alg».proof.Proof.Layer2
import proofs.«181759_j86629490360414_1_alg».proof.Proof.Net
import Idealize.ShloMosaic.Lib.ValueLayout

set_option maxRecDepth 16384

noncomputable section

namespace Cert.KernelIdeal.KernelValue

open Cert.KernelIdeal Cert.KernelIdeal.Gen Cert.KernelIdeal.HostChain
open Idealize.ShloMosaic Idealize.ShloMosaic.TcCoe Idealize.ShloMosaic.ValueIdx Idealize.SL.Sem

variable (m : (ℓ : Loc nD τ sig) → Buf (Elt Ideal) ℓ) (ρ : Dev nD → PrngReg)

/-- A bias vector made a row reads, at its one row, the vector. -/
theorem row128 (b : Vec Ideal S128 .f32) :
    (fun k : Fin 128 => (shapeCast S1x128 b shapeCasts_S128_S1x128 : Vec Ideal S1x128 .f32) (ix2 (0 : Fin 1) k)) = fun k => b (ix1 k) :=
  funext fun k => shapeCast_a_1a_apply b shapeCasts_S128_S1x128 0 k

theorem row64 (b : Vec Ideal S64 .f32) :
    (fun k : Fin 64 => (shapeCast S1x64 b shapeCasts_S64_S1x64 : Vec Ideal S1x64 .f32) (ix2 (0 : Fin 1) k)) = fun k => b (ix1 k) :=
  funext fun k => shapeCast_a_1a_apply b shapeCasts_S64_S1x64 0 k

set_option maxHeartbeats 1600000 in
/-- After the first region its output array is the first layer. -/
theorem feat1_eq (c : Dev nD) : W2 m ρ c (Proc.devRef .tc main_v16) = Gin.feat1 (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k)) := by
  refine (W2_arr m ρ c 6).trans ((Layer0.final (V1 m ρ) c).trans ?_)
  have e0 : (V1 m ρ c main_arg0 : Vec Ideal S50000x128 .f32) = (m ((c : Thread nD τ).loc main_arg0)) := W1_arg0 m ρ c
  have e1 : (V1 m ρ c main_v13 : Vec Ideal S50000x128 .f32) = (agg (src (m ((c : Thread nD τ).loc main_arg1))) (dst (m ((c : Thread nD τ).loc main_arg1)))) (m ((c : Thread nD τ).loc main_arg0)) := W1_v13 m ρ c
  have e2 : (V1 m ρ c main_arg2 : Vec Ideal S128x128 .f32) = (m ((c : Thread nD τ).loc main_arg2)) := W1_arg2 m ρ c
  have e3 : (V1 m ρ c main_v14 : Vec Ideal S1x128 .f32) = shapeCast S1x128 (m ((c : Thread nD τ).loc main_arg3)) shapeCasts_S128_S1x128 := W1_v14 m ρ c
  have e4 : (V1 m ρ c main_arg4 : Vec Ideal S128x128 .f32) = (m ((c : Thread nD τ).loc main_arg4)) := W1_arg4 m ρ c
  have e5 : (V1 m ρ c main_v15 : Vec Ideal S1x128 .f32) = shapeCast S1x128 (m ((c : Thread nD τ).loc main_arg5)) shapeCasts_S128_S1x128 := W1_v15 m ρ c
  rw [e0, e1, e2, e3, e4, e5, row128, row128]
  rfl

set_option maxHeartbeats 1600000 in
/-- After the second region its output array is the second layer. -/
theorem feat2_eq (c : Dev nD) : W4 m ρ c (Proc.devRef .tc main_v29) = Gin.feat2 (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k)) (m ((c : Thread nD τ).loc main_arg6)) (fun k => (m ((c : Thread nD τ).loc main_arg7) : Vec Ideal S128 .f32) (ix1 k)) (m ((c : Thread nD τ).loc main_arg8)) (fun k => (m ((c : Thread nD τ).loc main_arg9) : Vec Ideal S128 .f32) (ix1 k)) := by
  refine (W4_arr m ρ c 6).trans ((Layer1.final (V3 m ρ) c).trans ?_)
  have e0 : (V3 m ρ c main_v16 : Vec Ideal S50000x128 .f32) = Gin.feat1 (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k)) := (W3_v16 m ρ c).trans (feat1_eq m ρ c)
  have e1 : (V3 m ρ c main_v26 : Vec Ideal S50000x128 .f32) = (agg (src (m ((c : Thread nD τ).loc main_arg1))) (dst (m ((c : Thread nD τ).loc main_arg1)))) (Gin.feat1 (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k))) :=
    (W3_v26 m ρ c).trans (congrArg (agg (src (m ((c : Thread nD τ).loc main_arg1))) (dst (m ((c : Thread nD τ).loc main_arg1)))) (feat1_eq m ρ c))
  have e2 : (V3 m ρ c main_arg6 : Vec Ideal S128x128 .f32) = (m ((c : Thread nD τ).loc main_arg6)) := W3_arg6 m ρ c
  have e3 : (V3 m ρ c main_v27 : Vec Ideal S1x128 .f32) = shapeCast S1x128 (m ((c : Thread nD τ).loc main_arg7)) shapeCasts_S128_S1x128 := W3_v27 m ρ c
  have e4 : (V3 m ρ c main_arg8 : Vec Ideal S128x128 .f32) = (m ((c : Thread nD τ).loc main_arg8)) := W3_arg8 m ρ c
  have e5 : (V3 m ρ c main_v28 : Vec Ideal S1x128 .f32) = shapeCast S1x128 (m ((c : Thread nD τ).loc main_arg9)) shapeCasts_S128_S1x128 := W3_v28 m ρ c
  rw [e0, e1, e2, e3, e4, e5, row128, row128]
  rfl

set_option maxHeartbeats 3200000 in
/-- After the third region its output array, the program's result, is the network function of the arguments. -/
theorem result_eq (c : Dev nD) : W6 m ρ c (Proc.devRef .tc main_v44) = Gin.net (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k)) (m ((c : Thread nD τ).loc main_arg6)) (fun k => (m ((c : Thread nD τ).loc main_arg7) : Vec Ideal S128 .f32) (ix1 k)) (m ((c : Thread nD τ).loc main_arg8)) (fun k => (m ((c : Thread nD τ).loc main_arg9) : Vec Ideal S128 .f32) (ix1 k)) (m ((c : Thread nD τ).loc main_arg10)) (fun k => (m ((c : Thread nD τ).loc main_arg11) : Vec Ideal S128 .f32) (ix1 k)) (m ((c : Thread nD τ).loc main_arg12)) (fun k => (m ((c : Thread nD τ).loc main_arg13) : Vec Ideal S128 .f32) (ix1 k)) (m ((c : Thread nD τ).loc main_arg14)) (fun k => (m ((c : Thread nD τ).loc main_arg15) : Vec Ideal S128 .f32) (ix1 k)) (m ((c : Thread nD τ).loc main_arg16)) (fun k => (m ((c : Thread nD τ).loc main_arg17) : Vec Ideal S64 .f32) (ix1 k)) := by
  refine (W6_arr m ρ c 10).trans ((Layer2.final (V5 m ρ) c).trans ?_)
  have e0 : (V5 m ρ c main_v29 : Vec Ideal S50000x128 .f32) = Gin.feat2 (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k)) (m ((c : Thread nD τ).loc main_arg6)) (fun k => (m ((c : Thread nD τ).loc main_arg7) : Vec Ideal S128 .f32) (ix1 k)) (m ((c : Thread nD τ).loc main_arg8)) (fun k => (m ((c : Thread nD τ).loc main_arg9) : Vec Ideal S128 .f32) (ix1 k)) := (W5_v29 m ρ c).trans (feat2_eq m ρ c)
  have e1 : (V5 m ρ c main_v39 : Vec Ideal S50000x128 .f32) = (agg (src (m ((c : Thread nD τ).loc main_arg1))) (dst (m ((c : Thread nD τ).loc main_arg1)))) (Gin.feat2 (agg (src (m ((c : Thread nD τ).loc main_arg1))) (dst (m ((c : Thread nD τ).loc main_arg1)))) (m ((c : Thread nD τ).loc main_arg0)) (m ((c : Thread nD τ).loc main_arg2)) (fun k => (m ((c : Thread nD τ).loc main_arg3) : Vec Ideal S128 .f32) (ix1 k)) (m ((c : Thread nD τ).loc main_arg4)) (fun k => (m ((c : Thread nD τ).loc main_arg5) : Vec Ideal S128 .f32) (ix1 k)) (m ((c : Thread nD τ).loc main_arg6)) (fun k => (m ((c : Thread nD τ).loc main_arg7) : Vec Ideal S128 .f32) (ix1 k)) (m ((c : Thread nD τ).loc main_arg8)) (fun k => (m ((c : Thread nD τ).loc main_arg9) : Vec Ideal S128 .f32) (ix1 k))) :=
    (W5_v39 m ρ c).trans (congrArg (agg (src (m ((c : Thread nD τ).loc main_arg1))) (dst (m ((c : Thread nD τ).loc main_arg1)))) (feat2_eq m ρ c))
  have e2 : (V5 m ρ c main_arg10 : Vec Ideal S128x128 .f32) = (m ((c : Thread nD τ).loc main_arg10)) := W5_arg10 m ρ c
  have e3 : (V5 m ρ c main_v40 : Vec Ideal S1x128 .f32) = shapeCast S1x128 (m ((c : Thread nD τ).loc main_arg11)) shapeCasts_S128_S1x128 := W5_v40 m ρ c
  have e4 : (V5 m ρ c main_arg12 : Vec Ideal S128x128 .f32) = (m ((c : Thread nD τ).loc main_arg12)) := W5_arg12 m ρ c
  have e5 : (V5 m ρ c main_v41 : Vec Ideal S1x128 .f32) = shapeCast S1x128 (m ((c : Thread nD τ).loc main_arg13)) shapeCasts_S128_S1x128 := W5_v41 m ρ c
  have e6 : (V5 m ρ c main_arg14 : Vec Ideal S128x128 .f32) = (m ((c : Thread nD τ).loc main_arg14)) := W5_arg14 m ρ c
  have e7 : (V5 m ρ c main_v42 : Vec Ideal S1x128 .f32) = shapeCast S1x128 (m ((c : Thread nD τ).loc main_arg15)) shapeCasts_S128_S1x128 := W5_v42 m ρ c
  have e8 : (V5 m ρ c main_arg16 : Vec Ideal S128x64 .f32) = (m ((c : Thread nD τ).loc main_arg16)) := W5_arg16 m ρ c
  have e9 : (V5 m ρ c main_v43 : Vec Ideal S1x64 .f32) = shapeCast S1x64 (m ((c : Thread nD τ).loc main_arg17)) shapeCasts_S64_S1x64 := W5_v43 m ρ c
  rw [e0, e1, e2, e3, e4, e5, e6, e7, e8, e9, row128, row128, row128, row64]
  rfl

set_option maxHeartbeats 1600000 in
/-- The run, read: the result array at the network function of the arguments, the arguments unchanged. -/
theorem run : θ_run defs (onTc (τ := τ) (main (F := Ideal))) ⟨m, fun _ => 0, ρ⟩ (fun r => ∀ c : Dev nD,
      r.2.mem ((c.tc : Thread nD τ).loc main_v44) = Gin.net (agg (src (m ((c.tc : Thread nD τ).loc main_arg1))) (dst (m ((c.tc : Thread nD τ).loc main_arg1)))) (m ((c.tc : Thread nD τ).loc main_arg0)) (m ((c.tc : Thread nD τ).loc main_arg2)) (fun k => (m ((c.tc : Thread nD τ).loc main_arg3) : Vec Ideal S128 .f32) (ix1 k)) (m ((c.tc : Thread nD τ).loc main_arg4)) (fun k => (m ((c.tc : Thread nD τ).loc main_arg5) : Vec Ideal S128 .f32) (ix1 k)) (m ((c.tc : Thread nD τ).loc main_arg6)) (fun k => (m ((c.tc : Thread nD τ).loc main_arg7) : Vec Ideal S128 .f32) (ix1 k)) (m ((c.tc : Thread nD τ).loc main_arg8)) (fun k => (m ((c.tc : Thread nD τ).loc main_arg9) : Vec Ideal S128 .f32) (ix1 k)) (m ((c.tc : Thread nD τ).loc main_arg10)) (fun k => (m ((c.tc : Thread nD τ).loc main_arg11) : Vec Ideal S128 .f32) (ix1 k)) (m ((c.tc : Thread nD τ).loc main_arg12)) (fun k => (m ((c.tc : Thread nD τ).loc main_arg13) : Vec Ideal S128 .f32) (ix1 k)) (m ((c.tc : Thread nD τ).loc main_arg14)) (fun k => (m ((c.tc : Thread nD τ).loc main_arg15) : Vec Ideal S128 .f32) (ix1 k)) (m ((c.tc : Thread nD τ).loc main_arg16)) (fun k => (m ((c.tc : Thread nD τ).loc main_arg17) : Vec Ideal S64 .f32) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v44 (by decide))).trans (result_eq m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c),
      (h c _ (mem_uc main_arg17 (by decide))).trans (W6_main_arg17 m ρ c)⟩)
    (Boundary.run m ρ)

end Cert.KernelIdeal.KernelValue

end
-- ==== Proof.WholeOps.lean ====
/-
  The reference's host operations read on whole arrays.

  The reference applies to all 50000 nodes at once what a kernel body applies to 5000: a matrix product (the finite sum
  over the 128 contracted features), a bias vector made a row and spread over the nodes, the maximum with a zero splat
  (the rectifier). Composed, they are the whole-array layer and head of `ArrSpec.lean`; and since a layer's output is
  already rectified, the reference's extra rectifier after a layer is the identity on it.
-/
import proofs.«181759_j86629490360414_1_alg».proof.Proof.Gen.ReferenceIdeal
import proofs.«181759_j86629490360414_1_alg».proof.Proof.ArrSpec
import Idealize.ShloMosaic.Lib.ValueIdx
import Idealize.ShloMosaic.Lib.Pipeline.Value
import Idealize.ShloMosaic.PureOps.Ideal.Laws

noncomputable section

namespace Cert.ReferenceIdeal.WholeOps

open Cert.ReferenceIdeal Cert.ReferenceIdeal.Gen Idealize.ShloMosaic Idealize.ShloMosaic.ValueIdx Idealize.SL.Sem

theorem lhs128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product at node `p`, column `q`: the sum over the 128 contracted features. -/
theorem dot128_apply (x : FVec Ideal S50000x128 .f32) (w : FVec Ideal S128x128 .f32) (p : Fin 50000) (q : Fin 128) :
    Host.dotGeneral dot_S50000x128_S128x128_S50000x128_1_0_0_1_n_n none x w (ix2 p q) = ∑ k : Fin 128, x (ix2 p k) * w (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- A bias vector made a row and spread over all nodes reads, at `(p, q)`, its entry `q`. -/
theorem bias128_apply (b : Vec Ideal S128 .f32) (p : Fin 50000) (q : Fin 128) :
    broadcastInDim S50000x128 ![0, 1] bcast_S1x128_S50000x128_0_1 (broadcastInDim S1x128 ![1] bcast_S128_S1x128_1 b) (ix2 p q) = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The host's product plus the spread bias, at `(p, q)`: the affine map of row `p`. -/
theorem dense128_apply (x : FVec Ideal S50000x128 .f32) (w : FVec Ideal S128x128 .f32) (b : Vec Ideal S128 .f32) (p : Fin 50000) (q : Fin 128) :
    addf (Host.dotGeneral dot_S50000x128_S128x128_S50000x128_1_0_0_1_n_n none x w)
        (broadcastInDim S50000x128 ![0, 1] bcast_S1x128_S50000x128_0_1 (broadcastInDim S1x128 ![1] bcast_S128_S1x128_1 b)) (ix2 p q)
      = Gin.affine (fun k => x (ix2 p k)) (fun k c => w (ix2 k c)) (fun c => b (ix1 c)) q := by
  refine (addf_apply _ _ _).trans ?_
  rw [dot128_apply, bias128_apply]
  rfl

theorem lhs64_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs64_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs64_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs64_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's matrix product at node `p`, column `q`: the sum over the 128 contracted features. -/
theorem dot64_apply (x : FVec Ideal S50000x128 .f32) (w : FVec Ideal S128x64 .f32) (p : Fin 50000) (q : Fin 64) :
    Host.dotGeneral dot_S50000x128_S128x64_S50000x64_1_0_0_1_n_n none x w (ix2 p q) = ∑ k : Fin 128, x (ix2 p k) * w (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-- A bias vector made a row and spread over all nodes reads, at `(p, q)`, its entry `q`. -/
theorem bias64_apply (b : Vec Ideal S64 .f32) (p : Fin 50000) (q : Fin 64) :
    broadcastInDim S50000x64 ![0, 1] bcast_S1x64_S50000x64_0_1 (broadcastInDim S1x64 ![1] bcast_S64_S1x64_1 b) (ix2 p q) = b (ix1 q) := by
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The host's product plus the spread bias, at `(p, q)`: the affine map of row `p`. -/
theorem dense64_apply (x : FVec Ideal S50000x128 .f32) (w : FVec Ideal S128x64 .f32) (b : Vec Ideal S64 .f32) (p : Fin 50000) (q : Fin 64) :
    addf (Host.dotGeneral dot_S50000x128_S128x64_S50000x64_1_0_0_1_n_n none x w)
        (broadcastInDim S50000x64 ![0, 1] bcast_S1x64_S50000x64_0_1 (broadcastInDim S1x64 ![1] bcast_S64_S1x64_1 b)) (ix2 p q)
      = Gin.affine (fun k => x (ix2 p k)) (fun k c => w (ix2 k c)) (fun c => b (ix1 c)) q := by
  refine (addf_apply _ _ _).trans ?_
  rw [dot64_apply, bias64_apply]
  rfl

/-- The zero splat over all nodes. -/
abbrev zeros : FVec Ideal S50000x128 .f32 :=
  broadcastInDim S50000x128 ![] bcast_S_S50000x128 (constant (F := Ideal) S_ .f32 0x00000000#32)

/-- The maximum with the zero splat is the rectifier. -/
theorem relu_apply (v : FVec Ideal S50000x128 .f32) (i : S50000x128.Idx) :
    maximumf v zeros i = Gin.relu (v i) := by
  refine (maximumf_apply _ _ _).trans ?_
  have hz : zeros i = 0 := by
    refine (broadcastInDim_apply _ bcast_S_S50000x128 _ i ix0 (fun a => a.elim0)).trans ?_
    show Ideal.ofBits .f32 0x00000000#32 = 0
    exact Ideal.ofBits_zero_f32
  rw [hz]
  rfl

/-- Two rectified affine maps of `h + a` on all nodes are the whole-array layer. -/
theorem layer_eq (h a : FVec Ideal S50000x128 .f32) (w1 : FVec Ideal S128x128 .f32) (b1 : Vec Ideal S128 .f32)
    (w2 : FVec Ideal S128x128 .f32) (b2 : Vec Ideal S128 .f32) :
    maximumf (addf (Host.dotGeneral dot_S50000x128_S128x128_S50000x128_1_0_0_1_n_n none
        (maximumf (addf (Host.dotGeneral dot_S50000x128_S128x128_S50000x128_1_0_0_1_n_n none (addf h a) w1)
          (broadcastInDim S50000x128 ![0, 1] bcast_S1x128_S50000x128_0_1 (broadcastInDim S1x128 ![1] bcast_S128_S1x128_1 b1))) zeros) w2)
        (broadcastInDim S50000x128 ![0, 1] bcast_S1x128_S50000x128_0_1 (broadcastInDim S1x128 ![1] bcast_S128_S1x128_1 b2))) zeros
      = Gin.layerArr h a w1 (fun k => b1 (ix1 k)) w2 (fun k => b2 (ix1 k)) := by
  funext i
  obtain ⟨p, q, rfl⟩ : ∃ (p : Fin 50000) (q : Fin 128), i = ix2 p q := ⟨i 0, i 1, eq_ix2 i⟩
  refine (relu_apply _ _).trans ?_
  unfold Gin.layerArr Gin.layerRow
  refine congrArg Gin.relu ?_
  refine (dense128_apply _ _ _ p q).trans ?_
  refine congrArg (fun f => Gin.affine f (fun j k => w2 (ix2 j k)) (fun k => b2 (ix1 k)) q) (funext fun k => ?_)
  refine (relu_apply _ (ix2 p k)).trans (congrArg Gin.relu ?_)
  exact dense128_apply _ _ _ p k

/-- A layer's output is already rectified: the reference's extra rectifier after it changes nothing. -/
theorem relu_layer (h a : FVec Ideal S50000x128 .f32) (w1 : FVec Ideal S128x128 .f32) (b1 : Fin 128 → EReal)
    (w2 : FVec Ideal S128x128 .f32) (b2 : Fin 128 → EReal) :
    maximumf (Gin.layerArr h a w1 b1 w2 b2 : FVec Ideal S50000x128 .f32) zeros = Gin.layerArr h a w1 b1 w2 b2 := by
  funext i
  exact (relu_apply _ i).trans (Gin.relu_layerArr h a w1 b1 w2 b2 i)

/-- A rectified affine map to 128 features and an affine map to 64, on all nodes, are the whole-array head. -/
theorem head_eq (x : FVec Ideal S50000x128 .f32) (l1 : FVec Ideal S128x128 .f32) (c1 : Vec Ideal S128 .f32)
    (l2 : FVec Ideal S128x64 .f32) (c2 : Vec Ideal S64 .f32) :
    addf (Host.dotGeneral dot_S50000x128_S128x64_S50000x64_1_0_0_1_n_n none
        (maximumf (addf (Host.dotGeneral dot_S50000x128_S128x128_S50000x128_1_0_0_1_n_n none x l1)
          (broadcastInDim S50000x128 ![0, 1] bcast_S1x128_S50000x128_0_1 (broadcastInDim S1x128 ![1] bcast_S128_S1x128_1 c1))) zeros) l2)
        (broadcastInDim S50000x64 ![0, 1] bcast_S1x64_S50000x64_0_1 (broadcastInDim S1x64 ![1] bcast_S64_S1x64_1 c2))
      = Gin.headArr x l1 (fun k => c1 (ix1 k)) l2 (fun k => c2 (ix1 k)) := by
  funext i
  obtain ⟨p, q, rfl⟩ : ∃ (p : Fin 50000) (q : Fin 64), i = ix2 p q := ⟨i 0, i 1, eq_ix2 i⟩
  refine (dense64_apply _ _ _ p q).trans ?_
  unfold Gin.headArr Gin.headRow
  refine congrArg (fun f => Gin.affine f (fun j k => l2 (ix2 j k)) (fun k => c2 (ix1 k)) q) (funext fun k => ?_)
  refine (relu_apply _ (ix2 p k)).trans (congrArg Gin.relu ?_)
  exact dense128_apply _ _ _ p k

end Cert.ReferenceIdeal.WholeOps

end
-- ==== Proof.RefValue.lean ====
/-
  The reference's result as the network function.

  The reference's run ends with its result at the composed term of its host operations. Reading that term from the
  inside out: each neighbour aggregation is one function `agg` of the edge list's two rows and of the features; each
  pair of rectified affine maps of `h + agg h` is the whole-array layer; the extra rectifier the reference applies after
  the first two layers is the identity on a layer's output; the last two affine maps are the head.
-/
import proofs.«181759_j86629490360414_1_alg».proof.Proof.Gen.ReferenceIdeal.Run
import proofs.«181759_j86629490360414_1_alg».proof.Proof.WholeOps
import proofs.«181759_j86629490360414_1_alg».proof.Proof.Net

set_option maxRecDepth 16384

noncomputable section

namespace Cert.ReferenceIdeal.RefValue

open Cert.ReferenceIdeal Cert.ReferenceIdeal.Gen Cert.ReferenceIdeal.WholeOps
open Idealize.ShloMosaic Idealize.ShloMosaic.TcCoe Idealize.ShloMosaic.ValueIdx Idealize.SL.Sem

/-- The source node of every edge: the first row of the edge list. -/
def src (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The destination node of every edge: the second row of the edge list. -/
def dst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The neighbour sums: every edge adds its source's row (a negative source index counted from the end) into its
    destination's row of a zero array. -/
def agg (s d : (⟨S800000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The printed gather-and-scatter of one layer is `agg` of the edge list's rows. -/
theorem agg_fold (ei : (⟨S2x800000, .i32⟩ : BufTy).Contents (Elt Ideal)) (h : (⟨S50000x128, .f32⟩ : BufTy).Contents (Elt Ideal)) :
    Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (shapeCast _ (extractStridedSlice S1x800000 ![1, 0] ei slices_S2x800000_S1x800000_1_0) shapeCasts_S1x800000_S800000))
      (Host.gather gather_S50000x128_S800000x1_S800000x128_1_0_n_n_0_1_1128 h
        (broadcastInDim S800000x1 ![0] bcast_S800000_S800000x1_0
          (select (cmpi .slt (shapeCast _ (extractStridedSlice S1x800000 ![0, 0] ei slices_S2x800000_S1x800000_0_0) shapeCasts_S1x800000_S800000) (broadcastInDim S800000 ![] bcast_S_S800000 (constantI S_ 32 0#32)))
            (addi (shapeCast _ (extractStridedSlice S1x800000 ![0, 0] ei slices_S2x800000_S1x800000_0_0) shapeCasts_S1x800000_S800000) (broadcastInDim S800000 ![] bcast_S_S800000 (constantI S_ 32 50000#32)))
            (shapeCast _ (extractStridedSlice S1x800000 ![0, 0] ei slices_S2x800000_S1x800000_0_0) shapeCasts_S1x800000_S800000))))
      = agg (src ei) (dst ei) h := rfl

/-- The reference's result is the network function of its arguments. -/
theorem result_eq (m : (ℓ : Loc nD τ sig) → Buf (Elt Ideal) ℓ) (c : Dev nD) :
    Cert.ReferenceIdeal.Value.res_main_v77 m c
      = Gin.net (agg (src (m ((c.tc : Thread nD τ).loc main_arg1))) (dst (m ((c.tc : Thread nD τ).loc main_arg1)))) (m ((c.tc : Thread nD τ).loc main_arg0)) (m ((c.tc : Thread nD τ).loc main_arg2)) (fun k => (m ((c.tc : Thread nD τ).loc main_arg3) : Vec Ideal S128 .f32) (ix1 k)) (m ((c.tc : Thread nD τ).loc main_arg4)) (fun k => (m ((c.tc : Thread nD τ).loc main_arg5) : Vec Ideal S128 .f32) (ix1 k)) (m ((c.tc : Thread nD τ).loc main_arg6)) (fun k => (m ((c.tc : Thread nD τ).loc main_arg7) : Vec Ideal S128 .f32) (ix1 k)) (m ((c.tc : Thread nD τ).loc main_arg8)) (fun k => (m ((c.tc : Thread nD τ).loc main_arg9) : Vec Ideal S128 .f32) (ix1 k)) (m ((c.tc : Thread nD τ).loc main_arg10)) (fun k => (m ((c.tc : Thread nD τ).loc main_arg11) : Vec Ideal S128 .f32) (ix1 k)) (m ((c.tc : Thread nD τ).loc main_arg12)) (fun k => (m ((c.tc : Thread nD τ).loc main_arg13) : Vec Ideal S128 .f32) (ix1 k)) (m ((c.tc : Thread nD τ).loc main_arg14)) (fun k => (m ((c.tc : Thread nD τ).loc main_arg15) : Vec Ideal S128 .f32) (ix1 k)) (m ((c.tc : Thread nD τ).loc main_arg16)) (fun k => (m ((c.tc : Thread nD τ).loc main_arg17) : Vec Ideal S64 .f32) (ix1 k)) := by
  unfold Cert.ReferenceIdeal.Value.res_main_v77
  repeat rw [layer_eq]
  repeat rw [relu_layer]
  repeat rw [agg_fold]
  rw [head_eq]
  rfl

end Cert.ReferenceIdeal.RefValue

end
-- ==== Proof.lean ====
/-
  A three-layer graph network with an output head: the kernel program against the plain reference, on extended reals.

  Both programs compute, for every node, three times "its own features plus the sum of its in-neighbours' features,
  through two rectified affine maps", then a rectified affine map and a last affine map to 64 outputs. They aggregate
  the neighbours by the same host operations. They differ in four ways, none of which changes an extended real:
  the kernel rounds each matrix product's operands to a narrower float format (the identity here); it works on ten
  blocks of 5000 nodes where the reference works on all 50000 at once (a node's row depends on that node's rows
  only); its matrix products accumulate into zero where the reference's are plain products (both the same finite
  sum over 128 features); and the reference rectifies the first two layers' outputs once more (the rectifier is
  idempotent). So both results are one function of the arguments, `Gin.net`, and no finiteness is used.

  The three frames are the programs' runs with the results dropped; the idealization rewrote nothing.
-/
import proofs.«181759_j86629490360414_1_alg».proof.Defs
import proofs.«181759_j86629490360414_1_alg».proof.Proof.Gen.Kernel
import proofs.«181759_j86629490360414_1_alg».proof.Proof.Gen.Kernel.Frame
import proofs.«181759_j86629490360414_1_alg».proof.Proof.Gen.KernelIdeal
import proofs.«181759_j86629490360414_1_alg».proof.Proof.Gen.KernelIdeal.Frame
import proofs.«181759_j86629490360414_1_alg».proof.Proof.Gen.ReferenceIdeal
import proofs.«181759_j86629490360414_1_alg».proof.Proof.Gen.Pre_finite_inputs
import proofs.«181759_j86629490360414_1_alg».proof.Proof.Gen.ReferenceIdeal.Run
import proofs.«181759_j86629490360414_1_alg».proof.Proof.Gen.ReferenceIdeal.Read
import proofs.«181759_j86629490360414_1_alg».proof.Proof.KernelValue
import proofs.«181759_j86629490360414_1_alg».proof.Proof.RefValue

set_option maxRecDepth 16384

noncomputable section

namespace Cert.Proof

open Idealize.ShloMosaic Idealize.SL.Sem

/-- The two programs aggregate neighbours by the same operations: the same function of the edge list's rows and the features. -/
theorem agg_same (ei : (⟨Cert.KernelIdeal.S2x800000, .i32⟩ : BufTy).Contents (Elt Ideal)) :
    Cert.ReferenceIdeal.RefValue.agg (Cert.ReferenceIdeal.RefValue.src ei) (Cert.ReferenceIdeal.RefValue.dst ei)
      = Cert.KernelIdeal.HostChain.agg (Cert.KernelIdeal.HostChain.src ei) (Cert.KernelIdeal.HostChain.dst ei) := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at the network function of the arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.RefValue.result_eq, h0, h1, h2, h3, h4, h5, h6, h7, h8, h9, h10, h11, h12, h13, h14, h15, h16, h17, agg_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
